-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x128 : Shape := ⟨2, ![128, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8x4096x128 .f32) (main_arg1 : FVec F S128x128 .f32) (main_arg2 : FVec F S128x128 .f32) (main_arg3 : FVec F S128x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8x4096x128 : Shape := ⟨3, ![8, 4096, 128]⟩
abbrev S128x128 : Shape := ⟨2, ![128, 128]⟩
abbrev S32768x128 : Shape := ⟨2, ![32768, 128]⟩
abbrev S4096x128 : Shape := ⟨2, ![4096, 128]⟩
abbrev S1x1024x128 : Shape := ⟨3, ![1, 1024, 128]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S8x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S32768x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S32768x128, .f32⟩
  | .hbm, ⟨9, _⟩ => ⟨S32768x128, .f32⟩
  | .hbm, ⟨10, _⟩ => ⟨S32768x128, .bf16⟩
  | .hbm, ⟨11, _⟩ => ⟨S8x4096x128, .f32⟩
  | .hbm, ⟨12, _⟩ => ⟨S8x4096x128, .f32⟩
  | .hbm, ⟨13, _⟩ => ⟨S8x4096x128, .bf16⟩
  | .hbm, ⟨14, _⟩ => ⟨S8x4096x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .f32⟩
  | .local _ .vmem, ⟨18, _⟩ => ⟨S1x1024x128, .f32⟩
  | .local _ .vmem, ⟨19, _⟩ => ⟨S1024x1, .f32⟩
  | .local _ .vmem, ⟨20, _⟩ => ⟨S1024x1, .f32⟩
  | .local _ .vmem, ⟨21, _⟩ => ⟨S1024x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x4096x128_S32768x128 : S8x4096x128.ShapeCasts S32768x128
  transposes_S128x128_S128x128_1_0 : S128x128.Transposes [1, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S4096x128_S4096x128_0_0 : (Rect.unit (s := S4096x128) ![0, 0] S4096x128.size inb_S4096x128_S4096x128_0_0).PackedRows (EltTy.packing .bf16)
  shapeCasts_S32768x128_S8x4096x128 : S32768x128.ShapeCasts S8x4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  shapeCasts_S1024x128_S1x1024x128 : S1024x128.ShapeCasts S1x1024x128
  dot_S4096x128_S128x128_S4096x128_1_0_0_1_n_n_wf : DotDims.WF S4096x128 S128x128 S4096x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S32768x128.size a
  hwx0_4 : ∀ i : grid0.Coords, EltTy.bits .f32 = 32 ∨ (Rect.block (s := S32768x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S32768x128.size a
  hwx0_5 : ∀ i : grid0.Coords, EltTy.bits .f32 = 32 ∨ (Rect.block (s := S32768x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S32768x128.size a
  hwx0_6 : ∀ i : grid0.Coords, EltTy.bits .bf16 = 32 ∨ (Rect.block (s := S32768x128) S4096x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x4096x128.size a
  hwx1_0 : ∀ i : grid1.Coords, EltTy.bits .f32 = 32 ∨ (Rect.block (s := S8x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x4096x128.size a
  hwx1_1 : ∀ i : grid1.Coords, EltTy.bits .f32 = 32 ∨ (Rect.block (s := S8x4096x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x4096x128.size a
  hwx1_2 : ∀ i : grid1.Coords, EltTy.bits .bf16 = 32 ∨ (Rect.block (s := S8x4096x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x4096x128.size a
  hwx1_3 : ∀ i : grid1.Coords, EltTy.bits .f32 = 32 ∨ (Rect.block (s := S8x4096x128) S1x1024x128.size (cc1_transform_3 i) (hinb1_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S128x128 : Shape := ⟨2, ![128, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S8x4096x128, .f32⟩
  | .hbm, ⟨5, _⟩ => ⟨S8x4096x128, .f32⟩
  | .hbm, ⟨6, _⟩ => ⟨S8x4096x128, .f32⟩
  | .hbm, ⟨7, _⟩ => ⟨S8x4096x4096, .f32⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x128_S128x128_S8x4096x128_2_1_01_0_n_n_wf : DotDims.WF S8x4096x128 S128x128 S8x4096x128 [2] [1] [0, 1] [0] [] []
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x128_S128x128_S8x4096x128_2_1_01_0_n_n : DotDims S8x4096x128 S128x128 S8x4096x128 where
  lhsContracting := [2]
  rhsContracting := [1]
  lhsNonContracting := [0, 1]
  rhsNonContracting := [0]
  lhsBatch := []
  rhsBatch := []
  wf := dot_S8x4096x128_S128x128_S8x4096x128_2_1_01_0_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.Spec.lean ====
/-
  Single-head attention with unscaled scores over f32[8, 4096, 128], as two arrangements of one function on the
  extended reals.

  One query row against its 4096 keys has scores `S j` and, for one output column, values `V j`.
  * The plain arrangement (`refOut`): with `M` the largest score, the weights `exp (S j - M)` are divided by
    their sum and the output is the weighted sum of the values.
  * The blockwise arrangement (`state`, `flashOut`): the keys are visited in four blocks of 1024; a running
    maximum `m`, a running denominator `l` and a running numerator `a` are kept, and at each block the old
    `l` and `a` are rescaled by `exp (m_old - m_new)` before the block's terms (taken against `m_new`) are
    added; the output is `a / l` after the last block.
  Because `exp (m_old - m_new) * exp (s - m_old) = exp (s - m_new)`, after every block `l` and `a` are the sums
  of the weights, and of the weighted values, of the keys seen so far taken against the running maximum; after the
  last block that maximum is `M`, and dividing a sum by a positive real is dividing each term.
-/
import Idealize.ShloMosaic.PureOps.Ideal
import Idealize.ShloMosaic.PureOps.Ideal.Laws

noncomputable section

namespace Cert.Attn

open Idealize.ShloMosaic

/-- A bias-free linear layer on the last axis: `y (b, r, e) = Σ_d x (b, r, d) · w (e, d)`. -/
def proj (x : Fin 8 → Fin 4096 → Fin 128 → EReal) (w : Fin 128 → Fin 128 → EReal)
    (b : Fin 8) (r : Fin 4096) (e : Fin 128) : EReal :=
  ∑ d : Fin 128, x b r d * w e d

/-- The unscaled score of query row `r` against key row `j` (one batch): `Σ_e q (r, e) · k (j, e)`. -/
def score (q k : Fin 4096 → Fin 128 → EReal) (r j : Fin 4096) : EReal :=
  ∑ e : Fin 128, q r e * k j e

/-! ## The plain arrangement -/

/-- The largest score of a row (a fold of `max` from `-∞`, once more joined with `-∞`). -/
def refMax (S : Fin 4096 → EReal) : EReal :=
  max ⊥ ((Finset.univ : Finset (Fin 4096)).fold max ⊥ S)

/-- The weight of key `j`, not yet normalised. -/
def refP (S : Fin 4096 → EReal) (j : Fin 4096) : EReal := Ideal.exp (S j - refMax S)

/-- The denominator: zero plus the sum of the weights. -/
def refL (S : Fin 4096 → EReal) : EReal := 0 + ∑ j : Fin 4096, refP S j

/-- The output for one row and one column: the values weighted by the normalised weights. -/
def refOut (S V : Fin 4096 → EReal) : EReal :=
  ∑ j : Fin 4096, Ideal.div (refP S j) (refL S) * V j

/-! ## The blockwise arrangement -/

/-- Key `j` of block `k`: key `1024 k + j` (taken modulo 4096 so that the function is total in `k`). -/
def blkIdx (k : ℕ) (j : Fin 1024) : Fin 4096 := ⟨(k * 1024 + j.val) % 4096, Nat.mod_lt _ (by decide)⟩

/-- The largest score within one block. -/
def blockMax (s : Fin 1024 → EReal) : EReal := (Finset.univ : Finset (Fin 1024)).fold max ⊥ s

/-- The running maximum after a block. -/
def stepM (m : EReal) (s : Fin 1024 → EReal) : EReal := max m (blockMax s)

/-- The running denominator after a block. -/
def stepL (m l : EReal) (s : Fin 1024 → EReal) : EReal :=
  Ideal.exp (m - stepM m s) * l + ∑ j : Fin 1024, Ideal.exp (s j - stepM m s)

/-- The running numerator (one output column) after a block. -/
def stepA (m a : EReal) (s v : Fin 1024 → EReal) : EReal :=
  Ideal.exp (m - stepM m s) * a + ∑ j : Fin 1024, Ideal.exp (s j - stepM m s) * v j

/-- The triple (maximum, denominator, numerator) after the first `n` blocks of keys. -/
def state (S V : Fin 4096 → EReal) : ℕ → EReal × EReal × EReal
  | 0 => (⊥, 0, 0)
  | n + 1 =>
    let p := state S V n
    (stepM p.1 (fun j => S (blkIdx n j)),
     stepL p.1 p.2.1 (fun j => S (blkIdx n j)),
     stepA p.1 p.2.2 (fun j => S (blkIdx n j)) (fun j => V (blkIdx n j)))

/-- The blockwise output: numerator over denominator after all four blocks. -/
def flashOut (S V : Fin 4096 → EReal) : EReal :=
  Ideal.div (state S V 4).2.2 (state S V 4).2.1

end Cert.Attn

end
-- ==== Proof.RefValue.lean ====
/-
  The reference program's result, read at one index (b, r, e), is the plain arrangement of single-head attention:
  with the three projections Q, K, V of the input (sums over the 128 input features), the scores of query row r
  against the 4096 keys of batch b, the largest score M, the weights exp (S j - M), their sum, and the weighted sum of
  column e of V divided termwise by that sum.

  Every stage of the program is read at an index built from coordinates: a projection is a sum over the feature axis,
  the score a sum over the projected feature axis, the row maximum a fold of max from -∞ over the key axis, the
  broadcasts re-read the row's value, and the last contraction sums over the keys.
-/
import proofs.«120248_j30039001268548_2_alg».proof.Proof.Gen.ReferenceIdeal.Read
import proofs.«120248_j30039001268548_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attn Idealize.ShloMosaic Idealize.ShloMosaic.ValueIdx

/-- The input array as a plain function of its three coordinates. -/
def X (x0 : (⟨S8x4096x128, .f32⟩ : BufTy).Contents (Elt Ideal)) (b : Fin 8) (r : Fin 4096) (d : Fin 128) : EReal :=
  x0 (ix3 b r d)

/-- A weight matrix as a plain function of its two coordinates (output feature, input feature). -/
def Wm (x1 : (⟨S128x128, .f32⟩ : BufTy).Contents (Elt Ideal)) (e d : Fin 128) : EReal := x1 (ix2 e d)

variable (x0 : (⟨S8x4096x128, .f32⟩ : BufTy).Contents (Elt Ideal))
variable (x1 x2 x3 : (⟨S128x128, .f32⟩ : BufTy).Contents (Elt Ideal))

/-! ## The indices the stages read, at an index given by coordinates -/

theorem lidx_v0_ix (b : Fin 8) (r : Fin 4096) (e k : Fin 128) : lidx_main_v0 (ix3 b r e) k = ix3 b r k :=
  funext fun a => Fin.ext (by match a with | ⟨0, _⟩ => rfl | ⟨1, _⟩ => rfl | ⟨2, _⟩ => rfl)
theorem ridx_v0_ix (b : Fin 8) (r : Fin 4096) (e k : Fin 128) : ridx_main_v0 (ix3 b r e) k = ix2 e k :=
  funext fun a => Fin.ext (by match a with | ⟨0, _⟩ => rfl | ⟨1, _⟩ => rfl)
theorem lidx_v3_ix (b : Fin 8) (r j : Fin 4096) (k : Fin 128) : lidx_main_v3 (ix3 b r j) k = ix3 b r k :=
  funext fun a => Fin.ext (by match a with | ⟨0, _⟩ => rfl | ⟨1, _⟩ => rfl | ⟨2, _⟩ => rfl)
theorem ridx_v3_ix (b : Fin 8) (r j : Fin 4096) (k : Fin 128) : ridx_main_v3 (ix3 b r j) k = ix3 b j k :=
  funext fun a => Fin.ext (by match a with | ⟨0, _⟩ => rfl | ⟨1, _⟩ => rfl | ⟨2, _⟩ => rfl)
theorem idx_v7_ix (b : Fin 8) (r : Fin 4096) (z : Fin 1) : idx_main_v7 (ix3 b r z) = ix2 b r :=
  funext fun a => Fin.ext (by match a with | ⟨0, _⟩ => rfl | ⟨1, _⟩ => rfl)
theorem idx_v8_ix (b : Fin 8) (r j : Fin 4096) : idx_main_v8 (ix3 b r j) = ix3 b r (0 : Fin 1) :=
  funext fun a => Fin.ext (by match a with | ⟨0, _⟩ => rfl | ⟨1, _⟩ => rfl | ⟨2, _⟩ => rfl)
theorem idx_v11_ix (b : Fin 8) (r k : Fin 4096) : idx_main_v11 (ix2 b r) k = ix3 b r k :=
  funext fun a => Fin.ext (by match a with | ⟨0, _⟩ => rfl | ⟨1, _⟩ => rfl | ⟨2, _⟩ => rfl)
theorem idx_v12_ix (b : Fin 8) (r : Fin 4096) (z : Fin 1) : idx_main_v12 (ix3 b r z) = ix2 b r :=
  funext fun a => Fin.ext (by match a with | ⟨0, _⟩ => rfl | ⟨1, _⟩ => rfl)
theorem idx_v13_ix (b : Fin 8) (r j : Fin 4096) : idx_main_v13 (ix3 b r j) = ix3 b r (0 : Fin 1) :=
  funext fun a => Fin.ext (by match a with | ⟨0, _⟩ => rfl | ⟨1, _⟩ => rfl | ⟨2, _⟩ => rfl)
theorem lidx_v15_ix (b : Fin 8) (r : Fin 4096) (e : Fin 128) (k : Fin 4096) : lidx_main_v15 (ix3 b r e) k = ix3 b r k :=
  funext fun a => Fin.ext (by match a with | ⟨0, _⟩ => rfl | ⟨1, _⟩ => rfl | ⟨2, _⟩ => rfl)
theorem ridx_v15_ix (b : Fin 8) (r : Fin 4096) (e : Fin 128) (k : Fin 4096) : ridx_main_v15 (ix3 b r e) k = ix3 b k e :=
  funext fun a => Fin.ext (by match a with | ⟨0, _⟩ => rfl | ⟨1, _⟩ => rfl | ⟨2, _⟩ => rfl)

/-- The reduced index (b, r) with key k put back on the last axis is (b, r, k). -/
theorem lift_ix (h : S8x4096x4096.Reduces [2] S8x4096) (b : Fin 8) (r : Fin 4096) (k : Fin (S8x4096x4096.size 2)) :
    h.lift (ix2 b r) k = ix3 b r (⟨k.val, k.isLt⟩ : Fin 4096) :=
  funext fun a => Fin.ext (by match a with | ⟨0, _⟩ => rfl | ⟨1, _⟩ => rfl | ⟨2, _⟩ => rfl)

/-! ## The two constants -/

theorem negInf_eq : Ideal.ofBits .f32 0xFF800000#32 = (⊥ : EReal) := by simp [Ideal.ofBits, Ideal.ieee]

/-! ## The stages -/

/-- A projection at (b, r, e) is the sum over the input features. -/
theorem v0_ix (w : (⟨S128x128, .f32⟩ : BufTy).Contents (Elt Ideal)) (b : Fin 8) (r : Fin 4096) (e : Fin 128) :
    val_main_v0 (F := Ideal) x0 w (ix3 b r e) = proj (X x0) (Wm w) b r e := by
  rw [val_main_v0_apply]
  unfold proj X Wm
  refine Finset.sum_congr rfl fun k _ => ?_
  rw [lidx_v0_ix, ridx_v0_ix]

/-- The three projections are the same operation on three weight matrices. -/
theorem v1_eq (w : (⟨S128x128, .f32⟩ : BufTy).Contents (Elt Ideal)) : val_main_v1 (F := Ideal) x0 w = val_main_v0 (F := Ideal) x0 w := rfl
theorem v2_eq (w : (⟨S128x128, .f32⟩ : BufTy).Contents (Elt Ideal)) : val_main_v2 (F := Ideal) x0 w = val_main_v0 (F := Ideal) x0 w := rfl

/-- The scores of row (b, r): query row r of batch b against every key row. -/
def S (b : Fin 8) (r : Fin 4096) : Fin 4096 → EReal :=
  fun j => score (proj (X x0) (Wm x1) b) (proj (X x0) (Wm x2) b) r j

/-- The score array at (b, r, j). -/
theorem v3_ix (b : Fin 8) (r j : Fin 4096) :
    val_main_v3 (F := Ideal) x0 x1 x2 (ix3 b r j) = S x0 x1 x2 b r j := by
  rw [val_main_v3_apply]
  unfold S score
  refine Finset.sum_congr rfl fun k _ => ?_
  rw [lidx_v3_ix, ridx_v3_ix, v0_ix, v1_eq, v0_ix]

/-- The maximum over the key axis from -∞, at (b, r): a fold of max over the keys. -/
theorem reduce_max_ix (y : (⟨S8x4096x4096, .f32⟩ : BufTy).Contents (Elt Ideal)) (b : Fin 8) (r : Fin 4096) :
    Host.reduce (FloatOps.maximumf (F := Ideal) (φ := .f32)) y (val_main_cst (F := Ideal)) reducesTo_S8x4096x4096_S8x4096_d2 h_S_ (ix2 b r)
      = (Finset.univ : Finset (Fin 4096)).fold max ⊥ (fun j => y (ix3 b r j)) := by
  have h : S8x4096x4096.Reduces [2] S8x4096 := by decide
  rw [Host.reduce_eq_fold_single (FloatOps.maximumf (F := Ideal) (φ := .f32)) y _ reducesTo_S8x4096x4096_S8x4096_d2 h h_S_]
  rw [val_main_cst_apply, Ideal.ofBits_def, negInf_eq]
  have hf : (y ∘ h.lift (ix2 b r)) = fun j : Fin 4096 => y (ix3 b r j) := funext fun k => congrArg y (lift_ix h b r k)
  exact congrArg (fun f => Finset.fold max ⊥ f (Finset.univ : Finset (Fin 4096))) hf

theorem v4_ix (b : Fin 8) (r : Fin 4096) :
    val_main_v4 (F := Ideal) x0 x1 x2 (ix2 b r) = (Finset.univ : Finset (Fin 4096)).fold max ⊥ (S x0 x1 x2 b r) := by
  unfold val_main_v4
  rw [reduce_max_ix]
  exact congrArg (fun f => Finset.fold max ⊥ f (Finset.univ : Finset (Fin 4096))) (funext fun j => v3_ix x0 x1 x2 b r j)

/-- The row maximum, joined once more with -∞. -/
theorem v6_ix (b : Fin 8) (r : Fin 4096) :
    val_main_v6 (F := Ideal) x0 x1 x2 (ix2 b r) = refMax (S x0 x1 x2 b r) := by
  rw [val_main_v6_apply, val_main_v5_apply, val_main_cst_0_apply, v4_ix, Ideal.ofBits_def, negInf_eq, Ideal.maximumf_def]
  rfl

/-- The row maximum broadcast along the key axis. -/
theorem v8_ix (b : Fin 8) (r j : Fin 4096) :
    val_main_v8 (F := Ideal) x0 x1 x2 (ix3 b r j) = refMax (S x0 x1 x2 b r) := by
  rw [val_main_v8_apply, idx_v8_ix, val_main_v7_apply, idx_v7_ix, v6_ix]

/-- The weights, not yet normalised. -/
theorem v10_ix (b : Fin 8) (r j : Fin 4096) :
    val_main_v10 (F := Ideal) x0 x1 x2 (ix3 b r j) = refP (S x0 x1 x2 b r) j := by
  rw [val_main_v10_apply, val_main_v9_apply, v3_ix, v8_ix, Ideal.hostUnary_exp_def, Ideal.subf_def]
  rfl

/-- The denominator of a row. -/
theorem v11_ix (b : Fin 8) (r : Fin 4096) :
    val_main_v11 (F := Ideal) x0 x1 x2 (ix2 b r) = refL (S x0 x1 x2 b r) := by
  rw [val_main_v11_apply, val_main_cst_1_apply, Ideal.ofBits_def, Ideal.ofBits_zero_f32]
  unfold refL
  refine congrArg (0 + ·) (Finset.sum_congr rfl fun k _ => ?_)
  rw [idx_v11_ix, v10_ix]

/-- The denominator broadcast along the key axis. -/
theorem v13_ix (b : Fin 8) (r j : Fin 4096) :
    val_main_v13 (F := Ideal) x0 x1 x2 (ix3 b r j) = refL (S x0 x1 x2 b r) := by
  rw [val_main_v13_apply, idx_v13_ix, val_main_v12_apply, idx_v12_ix, v11_ix]

/-- The normalised weights. -/
theorem v14_ix (b : Fin 8) (r j : Fin 4096) :
    val_main_v14 (F := Ideal) x0 x1 x2 (ix3 b r j) = Ideal.div (refP (S x0 x1 x2 b r) j) (refL (S x0 x1 x2 b r)) := by
  rw [val_main_v14_apply, v10_ix, v13_ix, Ideal.hostDivf_def]

/-- The reference's result at (b, r, e) is the plain arrangement on row (b, r)'s scores and column e of the values. -/
theorem ref_apply (b : Fin 8) (r : Fin 4096) (e : Fin 128) :
    val_main_v15 (F := Ideal) x0 x1 x2 x3 (ix3 b r e)
      = refOut (fun j => score (proj (X x0) (Wm x1) b) (proj (X x0) (Wm x2) b) r j) (fun j => proj (X x0) (Wm x3) b j e) := by
  rw [val_main_v15_apply]
  unfold refOut
  refine Finset.sum_congr rfl fun k _ => ?_
  rw [lidx_v15_ix, ridx_v15_ix, v14_ix, v2_eq, v0_ix]
  rfl

end Cert.ReferenceIdeal.RefValue

end
-- ==== Proof.KI.Region0.lean ====
import proofs.«120248_j30039001268548_2_alg».proof.Proof.Gen.KernelIdeal.Launch
import proofs.«120248_j30039001268548_2_alg».proof.Proof.Gen.KernelIdeal.Skeleton
import proofs.«120248_j30039001268548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: the projection kernel, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved;
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved;
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved;
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved;
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4096x128 := Rect.unit (s := S4096x128) ![0, 0] S4096x128.size inb_S4096x128_S4096x128_0_0
abbrev r0_w : Rect S128x128 := Rect.unit (s := S128x128) ![0, 0] S128x128.size inb_S128x128_S128x128_0_0

/-! ## What the body leaves in each output window's buffer -/

/-- The Q block's staging buffer after the body: its one store, of the product of the input block and the first weight. -/
def out0_4 (x0 : Vec F S4096x128 .f32) (x1 : Vec F S128x128 .f32) : Vec F S4096x128 .f32 :=
  View.canon [⟨r0_x, k0_pay2 (View.ld x0 r0_x) (View.ld x1 r0_w)⟩]
/-- The K block's staging buffer after the body: its one store, of the product with the second weight. -/
def out0_5 (x0 : Vec F S4096x128 .f32) (x2 : Vec F S128x128 .f32) : Vec F S4096x128 .f32 :=
  View.canon [⟨r0_x, k0_pay3 (View.ld x0 r0_x) (View.ld x2 r0_w)⟩]
/-- The V block's staging buffer after the body: its one store, of the rounded product with the third weight. -/
def out0_6 (x0 : Vec F S4096x128 .f32) (x3 : Vec F S128x128 .f32) : Vec F S4096x128 .bf16 :=
  View.canon [⟨r0_x, k0_pay4 (View.ld x0 r0_x) (View.ld x3 r0_w)⟩]

/-- One store through the whole-buffer rectangle tiles the buffer, so it covers it (either element type). -/
theorem cover0_x {e : EltTy} (p0 : r0_x.shape.Idx → Elt F e) (y : S4096x128.Idx) :
    ∃ pc ∈ ([⟨r0_x, p0⟩] : List (View.Piece (Elt F) S4096x128 e)), y ∈ pc.1.set :=
  View.cover_of_tiled [⟨r0_x, p0⟩] S4096x128.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, whose loads and stores are run one by one. The loads of the outputs' buffers before each store
    read whatever is there and their values are not used. -/
theorem sound_kernel0 (c : Dev nD) (E : Set ℕ) (i : grid0.Coords)
    (arg1 : Memref sig .tc .vmem S4096x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S4096x128 .f32) (harg5 : arg5.IsWhole) (arg6 : Memref sig .tc .vmem S4096x128 .f32) (harg6 : arg6.IsWhole)
    (arg7 : Memref sig .tc .vmem S4096x128 .bf16) (harg7 : arg7.IsWhole)
    (x0 : Vec F S4096x128 .f32) (x1 x2 x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_x _)
  isplitl [H5]
  · iexists _; isplitr
    swap; · iexact H5
    ipureintro
    exact View.read_writes_eq_canon _ _ _ (cover0_x _)
  iexists _; isplitr
  swap; · iexact H6
  ipureintro
  exact View.read_writes_eq_canon _ _ _ (cover0_x _)

/-! ## The pipeline's proof data -/

/-- The proof data of the projection pipeline on core `c`: the arrays as the region finds them (`V`); after the body at
    point `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Runs1.lean ====
import proofs.«120248_j30039001268548_2_alg».proof.Proof.Gen.KernelIdeal.Launch
import proofs.«120248_j30039001268548_2_alg».proof.Proof.Gen.KernelIdeal.Skeleton
import proofs.«120248_j30039001268548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The second kernel launch (the running-softmax attention body), at the entry contents `V`

What the three whole-body runs share: the windows' blocks, the two conditions of the body decided over the
128 grid points, where the output window is idle, the names of the staging and scratch memrefs, and the
region invariant with the three carried buffers (running maximum, running denominator, running numerator)
owned at some contents. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block)'s current staging buffer holds its block at every point, fetched there or not
    (unfetched, the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the key block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the value block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the three carried buffers), from the grid
    coordinates: the innermost coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the normalised store into the output block): the innermost
    coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (reset taken, store not taken) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither taken) output 3 is idle. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (reset not taken, store taken) output 3 is live: the case stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of output window 3, through which its contents are stated (the choice does not matter). -/
abbrev VO1_3 : View sig .tc .vmem S1x1024x128 .f32 := (Memref.whole cc1_stg3_0 : Memref sig .tc .vmem S1x1024x128 .f32).view
/-- Each window's current staging memref at point `t`, spelled as the pipeline passes it, and its wholeness. -/
abbrev ms1_0 (t : Fin cfg1.N) : Memref sig .tc .vmem S1x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three carried buffers: whole scoped buffers of the kernel's own, passed beside the windows — the running
    row maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The same as views: what they hold is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The region invariant -/

/-- Separating conjunction associates, as an equation of propositions. -/
theorem sep_assoc_eq (P Q R : sProp 𝕄) : iprop((P ∗ Q) ∗ R) = iprop(P ∗ Q ∗ R) :=
  BI.Entails.antisymm
    (show iprop((P ∗ Q) ∗ R) ⊢ iprop(P ∗ Q ∗ R) from by
      iintro ⟨⟨HP, HQ⟩, HR⟩; isplitl [HP]; · iexact HP
      isplitl [HQ]; · iexact HQ
      iexact HR)
    (show iprop(P ∗ Q ∗ R) ⊢ iprop((P ∗ Q) ∗ R) from by
      iintro ⟨HP, HQ, HR⟩; isplitr [HR]
      · isplitl [HP]; · iexact HP
        iexact HQ
      iexact HR)

/-- The core's scoped buffers that are neither a staging buffer of this kernel launch nor one of its three carried
    buffers — the first kernel launch's staging buffers —, each whole at some contents: the body never touches them. -/
def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant with the three carried buffers as memrefs owned at some contents, beside the untouched
    rest: what the body obligation hands the run and takes back. -/
theorem PhiA1_eq (c : Dev nD) :
    (Pipeline.ΦA spec1 c : sProp 𝕄)
      = iprop(iprop(restStg1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA restStg1; rw [scopedRest1_eq]; simp only [scM1_0, scM1_1, scM1_2, owns_whole, sep_assoc_eq]; try rfl

end Cert.KernelIdeal.Hand

end
-- ==== Proof.KI.Run1A.lean ====
import proofs.«120248_j30039001268548_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the three carried buffers, as pieces (last first), IN CASE A (the reset taken, the
    output store not taken: the points ≡ 0 mod 4), WITH the proof that on whole memrefs — the three inputs' at their
    contents, the output's at contents `xi3` handed back untouched, the carried buffers' at anything (the reset
    overwrites them before they are read) — the body runs to the continuation holding the inputs' and the output's as they
    were and each carried buffer with its pieces written. The pieces are the witness. -/
noncomputable def kernelRun1_A (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1B.lean ====
import proofs.«120248_j30039001268548_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The same IN CASE B (neither conditional taken: the points ≡ 1, 2 mod 4): the carried buffers enter at the contents
    `xs0`, `xs1`, `xs2` the point before left (running maximum, denominator, numerator); the output is handed back
    untouched. -/
noncomputable def kernelRun1_B (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1C.lean ====
import proofs.«120248_j30039001268548_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The same IN CASE C (the reset not taken, the output store taken: the points ≡ 3 mod 4): the carried buffers enter at
    what the point before left; the output's buffer enters at anything and ends with its pieces (`L3`) written. -/
noncomputable def kernelRun1_C (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Region1.lean ====
import proofs.«120248_j30039001268548_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The second kernel launch's half of the frame

Per case of the body's two conditionals, what the output block and the three carried buffers (running maximum, running
denominator, running numerator of the streaming softmax) hold after the body — the pieces each case's run found,
read back —; then the same point by point (`outsAt1`), the region invariant carrying the three buffers between points
(`PhiS1`), the pipeline's proof data (`dat1`) and the body obligation. -/

/-- In case A (reset taken, store not taken) nothing is stored into output 3 (the window is idle at its points and not written back there):
    no pieces — a placeholder (junk read back) that nothing consults. -/
def out1_A_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1x1024x128 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- In case A (reset taken, store not taken) the pieces stored into carried buffer 0 (the running row maximum) tile it, so they cover it. -/
theorem scover1_A_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A (reset taken, store not taken) leaves in carried buffer 0 (the running row maximum): its pieces read back over junk. -/
def sout1_A_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- In case A (reset taken, store not taken) the pieces stored into carried buffer 1 (the running denominator) tile it, so they cover it. -/
theorem scover1_A_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A (reset taken, store not taken) leaves in carried buffer 1 (the running denominator): its pieces read back over junk. -/
def sout1_A_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- In case A (reset taken, store not taken) the pieces stored into carried buffer 2 (the running numerator) tile it, so they cover it. -/
theorem scover1_A_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x128.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x128.size (by sl_kernel_rfl) y

/-- What case A (reset taken, store not taken) leaves in carried buffer 2 (the running numerator): its pieces read back over junk. -/
def sout1_A_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- In case B (neither conditional taken) nothing is stored into output 3 (the window is idle at its points and not written back there):
    no pieces — a placeholder (junk read back) that nothing consults. -/
def out1_B_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- In case B (neither conditional taken) the pieces stored into carried buffer 0 (the running row maximum) tile it, so they cover it. -/
theorem scover1_B_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B (neither conditional taken) leaves in carried buffer 0 (the running row maximum): its pieces read back over junk. -/
def sout1_B_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- In case B (neither conditional taken) the pieces stored into carried buffer 1 (the running denominator) tile it, so they cover it. -/
theorem scover1_B_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B (neither conditional taken) leaves in carried buffer 1 (the running denominator): its pieces read back over junk. -/
def sout1_B_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- In case B (neither conditional taken) the pieces stored into carried buffer 2 (the running numerator) tile it, so they cover it. -/
theorem scover1_B_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x128.size (by sl_kernel_rfl) y

/-- What case B (neither conditional taken) leaves in carried buffer 2 (the running numerator): its pieces read back over junk. -/
def sout1_B_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- In case C (reset not taken, store taken) the pieces stored into output 3 tile its block, so they cover it. -/
theorem cover1_C_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1x1024x128.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x128.size (by sl_kernel_rfl) y

/-- What case C (reset not taken, store taken) leaves in output 3's staging buffer: its pieces read back over junk. -/
def out1_C_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- In case C (reset not taken, store taken) the pieces stored into carried buffer 0 (the running row maximum) tile it, so they cover it. -/
theorem scover1_C_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C (reset not taken, store taken) leaves in carried buffer 0 (the running row maximum): its pieces read back over junk. -/
def sout1_C_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- In case C (reset not taken, store taken) the pieces stored into carried buffer 1 (the running denominator) tile it, so they cover it. -/
theorem scover1_C_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C (reset not taken, store taken) leaves in carried buffer 1 (the running denominator): its pieces read back over junk. -/
def sout1_C_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- In case C (reset not taken, store taken) the pieces stored into carried buffer 2 (the running numerator) tile it, so they cover it. -/
theorem scover1_C_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x128.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x128.size (by sl_kernel_rfl) y

/-- What case C (reset not taken, store taken) leaves in carried buffer 2 (the running numerator): its pieces read back over junk. -/
def sout1_C_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output and the carried buffers hold after each point -/

/-- THE ACCUMULATION. What output 3's staging buffer and the three carried buffers (running maximum, running
    denominator, running numerator) hold after the body at position `n`: the case the closed forms select at `n`, run
    at the point's memrefs and input blocks, the carried buffers entering at what this leaves at `n - 1`. An assignment of
    the conditions no point meets is no case. -/
def outsAt1 (c : Dev nD) : (n : ℕ) → n < cfg1.N → Vec F S1x1024x128 .f32 × Vec F S1024x1 .f32 × Vec F S1024x1 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no staging
    buffer of this kernel launch at anything); afterwards the untouched rest with each carried buffer at what the point before
    left in it (`outsAt1`'s last three components), and the generator register at some state. -/
def PhiS1 (c : Dev nD) : (n : ℕ) → n ≤ cfg1.N → sProp 𝕄
  | 0, _ => Pipeline.ΦA spec1 c
  | n + 1, hn => iprop(iprop(restStg1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(restStg1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(restStg1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this kernel launch on core `c`: the arrays as the region finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; so that
    case's run applies; the invariant hands the body the carried buffers at what the point before left (at anything at the
    first point) and takes them back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
import proofs.«120248_j30039001268548_2_alg».proof.Proof.KI.Region0
import proofs.«120248_j30039001268548_2_alg».proof.Proof.KI.Region1
import proofs.«120248_j30039001268548_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the four items of the program

The program is: four host operations (a reshape of the input and the three weight transposes), the projection
region, three host reshapes, the attention region. The contents of every unscoped buffer are followed through
them as a fold from the launch memory. -/

/-- At launch. -/
abbrev B0 : Dev nD → Valuation τ sig (Elt F) := fun c b => (s₀ m ρ).mem ((c : Dev nD), b)
/-- After the reshape and the three transposes: what the projection region is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the projection region: its seven arrays at what its write-backs leave, everything else untouched. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem B2_final (c : Dev nD) (w : Fin cfg0.W) : (dat0 (E1 m ρ) c).arrAt w cfg0.N = E2 m ρ c (Pipeline.arrRef spec0 w) :=
  (B2_arr m ρ c w).symm
theorem B2_rest (c : Dev nD) : ∀ b, b ∉ Finset.univ.image (Pipeline.arrRef spec0) → E2 m ρ c b = E1 m ρ c b :=
  fun b hb => B2_other m ρ c b fun w e => hb (Finset.mem_image.mpr ⟨w, Finset.mem_univ _, e⟩)

/-- After the three reshapes to [8, 4096, 128]: what the attention region is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention region: its four arrays at what its write-backs leave, everything else untouched. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem B4_final (c : Dev nD) (w : Fin cfg1.W) : (dat1 (E3 m ρ) c).arrAt w cfg1.N = E4 m ρ c (Pipeline.arrRef spec1 w) :=
  (B4_arr m ρ c w).symm
theorem B4_rest (c : Dev nD) : ∀ b, b ∉ Finset.univ.image (Pipeline.arrRef spec1) → E4 m ρ c b = E3 m ρ c b :=
  fun b hb => B4_other m ρ c b fun w e => hb (Finset.mem_image.mpr ⟨w, Finset.mem_univ _, e⟩)

/-! ## An argument is written by nothing

No host operation writes an argument and no region has one among its arrays, so an argument's buffer holds its
launch contents at every boundary. -/

theorem B4_arg (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    B4 m ρ c (Proc.devRef .tc r) = m ((c : Thread nD τ).loc r) :=
  calc B4 m ρ c (Proc.devRef .tc r)
    _ = B3 m ρ c (Proc.devRef .tc r) := B4_other m ρ c r ha1
    _ = B2 m ρ c (Proc.devRef .tc r) := StableHlo.after_of_writes_sub hostOps1 _ hostOps1_writes h1
    _ = B1 m ρ c (Proc.devRef .tc r) := B2_other m ρ c r ha0
    _ = B0 m ρ c (Proc.devRef .tc r) := StableHlo.after_of_writes_sub hostOps0 _ hostOps0_writes h0
    _ = m ((c : Thread nD τ).loc r) := rfl

theorem B4_main_arg0 (c : Dev nD) : B4 m ρ c (Proc.devRef .tc main_arg0) = m ((c : Thread nD τ).loc main_arg0) :=
  B4_arg m ρ c main_arg0 (by decide) (by decide) (by decide) (by decide)
theorem B4_main_arg1 (c : Dev nD) : B4 m ρ c (Proc.devRef .tc main_arg1) = m ((c : Thread nD τ).loc main_arg1) :=
  B4_arg m ρ c main_arg1 (by decide) (by decide) (by decide) (by decide)
theorem B4_main_arg2 (c : Dev nD) : B4 m ρ c (Proc.devRef .tc main_arg2) = m ((c : Thread nD τ).loc main_arg2) :=
  B4_arg m ρ c main_arg2 (by decide) (by decide) (by decide) (by decide)
theorem B4_main_arg3 (c : Dev nD) : B4 m ρ c (Proc.devRef .tc main_arg3) = m ((c : Thread nD τ).loc main_arg3) :=
  B4_arg m ρ c main_arg3 (by decide) (by decide) (by decide) (by decide)

/-! ## The proof data of both pipelines and the state a core carries between items -/

/-- Neither pallas_call has a prefetched table. -/
abbrev noTables : (p : Fin 2) → (pcfgs (F := F) p).Adm := fun p => (cfgs p).toPCfg_adm
/-- Each pipeline's proof data at the contents its region is entered with. -/
def bothDats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev noVariants : Variants := Variants.none
/-- No core ever owes another anything. -/
abbrev noDues : GSem nD τ sig → Finset Unit := fun _ => ∅
abbrev noLevels : GSem nD τ sig → Unit → ℕ := fun _ _ => 0
/-- Beside the buffers a core carries its generator register, at some state, and owes nothing. -/
abbrev carried (c : Dev nD) : sProp 𝕄 := iprop((∃ r, prngReg c r) ∗ ∃ W, owes (c : Thread nD τ) (0 : CellTallies nD τ sig Unit) W)
/-- A stretch of host operations from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, apart from owing nothing. -/
abbrev atEnd (c : Dev nD) : sProp 𝕄 := iprop(StableHlo.held (c : Thread nD τ) (Pipeline.ucRefs τ sig) (B4 m ρ c) ∗ ∃ r, prngReg c r)

/-! ## The two regions -/

set_option backward.isDefEq.respectTransparency.types false in
/-- The projection region, entered with every unscoped buffer at `B1` and left with them at `B2`: its arrays are
    taken out of the unscoped buffers and put back at their final contents; its invariant is the scoped rest and
    the generator register, unchanged from point to point. -/
def projRegion : Pipeline.RegionSeg (pcfgs (F := F)) noTables (bothDats m ρ) () defs₀ noVariants noDues noLevels 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noDues noLevels 0 fun _ _ => rfl
  pre c := iprop(StableHlo.held (c : Thread nD τ) (Pipeline.ucRefs τ sig) (B1 m ρ c) ∗ carried c)
  post c := iprop(StableHlo.held (c : Thread nD τ) (Pipeline.ucRefs τ sig) (B2 m ρ c) ∗ carried c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (bothDats m ρ) launch0.win launch0.arr_whole c
      ((bothDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (bothDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (bothDats m ρ) ((bothDats m ρ 0 c).share_full fun _ => rfl)
      (E1 m ρ c) (E2 m ρ c) ((bothDats m ρ 0 c).arrAt · cfg0.N) (B2_final m ρ c) (B2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region, entered with every unscoped buffer at `B3` and left with them at `B4`. Its invariant
    carries the three scratch buffers from point to point at the contents the point before left; at its two ends
    that invariant is exchanged for the plain one (the scoped rest at anything and the generator register). -/
def attnRegion : Pipeline.RegionSeg (pcfgs (F := F)) noTables (bothDats m ρ) () defs₀ noVariants noDues noLevels 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noDues noLevels 1 fun _ _ => rfl
  pre c := iprop(StableHlo.held (c : Thread nD τ) (Pipeline.ucRefs τ sig) (B3 m ρ c) ∗ carried c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (bothDats m ρ) launch1.win launch1.arr_whole c
      ((bothDats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (E3 m ρ) c)
    show (_ : sProp 𝕄) ⊢ (_ : sProp 𝕄)
    unfold Pipeline.ΦA
    iintro ⟨Hp, -, Hr⟩
    isplitl [Hr]; · iexact Hr
    iexact Hp
  hout c := by
    refine BI.Entails.trans (hout1 (E3 m ρ) c) ?_
    show (_ : sProp 𝕄) ⊢ (_ : sProp 𝕄)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m ρ) ((bothDats m ρ 1 c).share_full fun _ => rfl)
      (E3 m ρ c) (E4 m ρ c) ((bothDats m ρ 1 c).arrAt · cfg1.N) (B4_final m ρ c) (B4_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program -/

/-- The program's four items in order. -/
abbrev items : List (Pipeline.Seg (pcfgs (F := F)) noTables (bothDats m ρ) () defs₀ noVariants noDues noLevels) :=
  [ .host (hostStretch hostOps0 hostOps0_sub hostOps0_fresh (B0 m ρ)),
    .region (projRegion m ρ),
    .host (hostStretch hostOps1 hostOps1_sub hostOps1_fresh (B2 m ρ)),
    .region (attnRegion m ρ) ]
theorem main_is_items (c : Dev nD) : main (F := F) c = Pipeline.Seg.run (items m ρ) := (main_chain c).trans (by chain_rfl)

set_option backward.isDefEq.respectTransparency.types false in
/-- From any memory with zero counters every weakly fair execution of the program terminates without a fault, and
    at the end every unscoped buffer of every core holds what the fold `B4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (bothDats m ρ) () cellOf_inj emb₁ defs₀ noVariants noDues noLevels m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ carried c)) (Tₙ := atEnd m ρ)
    (hch := ⟨fun _ => .rfl, fun _ => .rfl, fun _ => .rfl, fun _ => .rfl, fun _ => .rfl⟩)
    (hinit := by
      refine Pipeline.initEach noDues noLevels fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c)⟩) (run_all m ρ)

/-- The result buffer at the end is the attention region's output array after its last point. -/
theorem result_eq (c : Dev nD) : B4 m ρ c (Proc.devRef .tc main_v8) = (dat1 (E3 m ρ) c).arrAt 3 cfg1.N :=
  B4_arr m ρ c 3

end Cert.KernelIdeal.Hand

end
-- ==== Proof.KI.Blocks1.lean ====
import proofs.«120248_j30039001268548_2_alg».proof.Proof.KI.Runs1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

open Idealize.ShloMosaic.ValueIdx

/-! ## Where the attention region's blocks sit in their arrays

Grid point `t` of the attention region is `(b, qi, ki)` with `t = 16 b + 4 qi + ki`: batch `b`, query block `qi`,
key block `ki`. The query and output windows sit at block `(b, qi, 0)`, the key and value windows at `(b, ki, 0)`;
a block is 1 × 1024 × 128, so entry `(0, r, d)` of a query block is entry `(b, 1024 qi + r, d)` of the array. -/

/-- The four index maps, decided over the 128 points. -/
theorem idx1_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- An entry of the query block at point `t` is the entry of the query array at batch `t / 16`, row
    `1024 (t / 4 mod 4) + r`. -/
theorem iblk1_q (c : Dev nD) (t : Fin cfg1.N) (j : S1x1024x128.Idx) (i : S8x4096x128.Idx)
    (h0 : (i 0).val = t.val / 16) (h1 : (i 1).val = t.val / 4 % 4 * 1024 + (j 1).val) (h2 : (i 2).val = (j 2).val) :
    iblk1 V c 0 t j = V c main_v5 i := by
  obtain ⟨e0, e1, e2, -⟩ := idx1_facts t
  show V c main_v5 (((cfg1.win 0).blk t).view.emb j) = V c main_v5 i
  refine congrArg _ ?_
  funext a; apply Fin.ext
  have hj0 : (j 0).val < 1 := (j 0).isLt
  match a with
  | ⟨0, _⟩ => show win1_0.index t (0 : Fin 3) * 1 + 1 * (j 0).val = (i 0).val; omega
  | ⟨1, _⟩ => show win1_0.index t (1 : Fin 3) * 1024 + 1 * (j 1).val = (i 1).val; omega
  | ⟨2, _⟩ => show win1_0.index t (2 : Fin 3) * 128 + 1 * (j 2).val = (i 2).val; omega

/-- An entry of the key block at point `t`: batch `t / 16`, row `1024 (t mod 4) + r` of the key array. -/
theorem iblk1_k (c : Dev nD) (t : Fin cfg1.N) (j : S1x1024x128.Idx) (i : S8x4096x128.Idx)
    (h0 : (i 0).val = t.val / 16) (h1 : (i 1).val = t.val % 4 * 1024 + (j 1).val) (h2 : (i 2).val = (j 2).val) :
    iblk1 V c 1 t j = V c main_v6 i := by
  obtain ⟨-, -, -, e0, e1, e2, -⟩ := idx1_facts t
  show V c main_v6 (((cfg1.win 1).blk t).view.emb j) = V c main_v6 i
  refine congrArg _ ?_
  funext a; apply Fin.ext
  have hj0 : (j 0).val < 1 := (j 0).isLt
  match a with
  | ⟨0, _⟩ => show win1_1.index t (0 : Fin 3) * 1 + 1 * (j 0).val = (i 0).val; omega
  | ⟨1, _⟩ => show win1_1.index t (1 : Fin 3) * 1024 + 1 * (j 1).val = (i 1).val; omega
  | ⟨2, _⟩ => show win1_1.index t (2 : Fin 3) * 128 + 1 * (j 2).val = (i 2).val; omega

/-- An entry of the value block at point `t`: batch `t / 16`, row `1024 (t mod 4) + r` of the value array. -/
theorem iblk1_v (c : Dev nD) (t : Fin cfg1.N) (j : S1x1024x128.Idx) (i : S8x4096x128.Idx)
    (h0 : (i 0).val = t.val / 16) (h1 : (i 1).val = t.val % 4 * 1024 + (j 1).val) (h2 : (i 2).val = (j 2).val) :
    iblk1 V c 2 t j = V c main_v7 i := by
  obtain ⟨-, -, -, -, -, -, e0, e1, e2, -⟩ := idx1_facts t
  show V c main_v7 (((cfg1.win 2).blk t).view.emb j) = V c main_v7 i
  refine congrArg _ ?_
  funext a; apply Fin.ext
  have hj0 : (j 0).val < 1 := (j 0).isLt
  match a with
  | ⟨0, _⟩ => show win1_2.index t (0 : Fin 3) * 1 + 1 * (j 0).val = (i 0).val; omega
  | ⟨1, _⟩ => show win1_2.index t (1 : Fin 3) * 1024 + 1 * (j 1).val = (i 1).val; omega
  | ⟨2, _⟩ => show win1_2.index t (2 : Fin 3) * 128 + 1 * (j 2).val = (i 2).val; omega

end Cert.KernelIdeal.Hand

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibDotRows.lean ====
/-
  A rows-by-rows product read at an index.

  For dimension numbers that contract the second axis of both operands (an `M × K` array against an `N × K` array:
  the product with the second operand's transpose), the sum over the contraction index that the matrix unit and a
  host `dot_general` denote on the extended reals is `Σ_k l (a, k) · r (b, k)`.
-/
import Idealize.ShloMosaic.PureOps.Ideal.Laws
import Idealize.ShloMosaic.Lib.ValueIdx

noncomputable section

open scoped BigOperators

namespace Idealize.ShloMosaic.RowsDot

open Idealize.ShloMosaic Idealize.ShloMosaic.ValueIdx

variable {M K N : ℕ}

/-- The contraction sum of a product with the transpose at output index `(a, b)` is the sum over `k : Fin K` of
    `l (a, k) · r (b, k)`. The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Idealize.ShloMosaic.RowsDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.PayValue.lean ====
/-
  The arithmetic of the two kernels read at one index, on the extended reals (every float operation exact, every
  format change the identity).

  The projection kernel's three stores are plain products `Σ_d x (r, d) · w (d, e)`. The attention kernel, at one
  grid point, forms the score block of a query block against a key block, `s (r, j) = Σ_d q (r, d) · k (j, d)`, and
  updates a running maximum, denominator and numerator per query row exactly as the blockwise arrangement of the
  softmax prescribes (`stepM`, `stepL`, `stepA`); the three are reset to `-∞`, `0`, `0`, and the output block is
  numerator over denominator.
-/
import proofs.«120248_j30039001268548_2_alg».proof.Proof.Gen.KernelIdeal.Skeleton
import proofs.«120248_j30039001268548_2_alg».proof.Proof.Spec
import proofs.«120248_j30039001268548_2_alg».proof.Proof.LibDot
import proofs.«120248_j30039001268548_2_alg».proof.Proof.LibDotRows
import proofs.«120248_j30039001268548_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.Attn Idealize.ShloMosaic Idealize.ShloMosaic.ValueIdx

/-- The score of query row `r` of a Q block against key row `j` of a K block: the sum over the 128 features of the
    products. -/
def sc (q k : Vec Ideal S1x1024x128 .f32) (r j : Fin 1024) : EReal := ∑ d : Fin 128, q (ix3 0 r d) * k (ix3 0 j d)

/-- The f32 word `0xFF800000` denotes `-∞`. -/
theorem ofBits_neg_inf_f32 : Ideal.ofBits .f32 0xFF800000#32 = ⊥ := by simp [Ideal.ofBits, Ideal.ieee]

/-! ## The reset values -/

/-- The running maximum is reset to `-∞`. -/
theorem reset_m (r : Fin 1024) : k1_pay4 (F := Ideal) (ix2 r 0) = ⊥ := by
  unfold k1_pay4
  simp only [shapeCast_self]
  exact ofBits_neg_inf_f32

/-- The running denominator is reset to zero. -/
theorem reset_l (r : Fin 1024) : k1_pay5 (F := Ideal) (ix2 r 0) = 0 := by
  unfold k1_pay5
  simp only [shapeCast_self]
  exact Ideal.ofBits_zero_f32

/-- The running numerator is reset to zero. -/
theorem reset_a (r : Fin 1024) (e : Fin 128) : k1_pay6 (F := Ideal) (ix2 r e) = 0 := by
  unfold k1_pay6
  simp only [shapeCast_self]
  exact Ideal.ofBits_zero_f32

/-! ## The output block: numerator over denominator -/

theorem o_apply (acc : Vec Ideal S1024x128 .f32) (l : Vec Ideal S1024x1 .f32) (r : Fin 1024) (e : Fin 128) :
    k1_pay3 acc l (ix3 0 r e) = Ideal.div (acc (ix2 r e)) (l (ix2 r 0)) := by
  unfold k1_pay3
  refine (shapeCast_ab_1ab_apply _ _ (0 : Fin 1) r e).trans ?_
  refine (divf_apply _ _ _).trans ?_
  exact congrArg (Ideal.div (acc (ix2 r e))) (Cert.LibColumn.broadcastTo_a1_ab_apply l _ r e)

/-! ## The projections -/

theorem q_apply (x : Vec Ideal S4096x128 .f32) (w : Vec Ideal S128x128 .f32) (r : Fin 4096) (e : Fin 128) :
    k0_pay2 x w (ix2 r e) = ∑ d : Fin 128, x (ix2 r d) * w (ix2 d e) := by
  unfold k0_pay2 k0_pay1
  simp only [shapeCast_self]
  refine (Ideal.matmul_constant_zero_apply dot_S4096x128_S128x128_S4096x128_1_0_0_1_n_n none
    (truncf .bf16 x bitsLt_bf16_f32) (truncf .bf16 w bitsLt_bf16_f32) (ix2 r e)).trans ?_
  exact PlainDot.sum_eq dot_S4096x128_S128x128_S4096x128_1_0_0_1_n_n rfl rfl rfl rfl rfl rfl
    (truncf (F := Ideal) .bf16 x bitsLt_bf16_f32) (truncf (F := Ideal) .bf16 w bitsLt_bf16_f32) r e

theorem k_apply (x : Vec Ideal S4096x128 .f32) (w : Vec Ideal S128x128 .f32) (r : Fin 4096) (e : Fin 128) :
    k0_pay3 x w (ix2 r e) = ∑ d : Fin 128, x (ix2 r d) * w (ix2 d e) := by
  unfold k0_pay3 k0_pay1
  simp only [shapeCast_self]
  refine (Ideal.matmul_constant_zero_apply dot_S4096x128_S128x128_S4096x128_1_0_0_1_n_n none
    (truncf .bf16 x bitsLt_bf16_f32) (truncf .bf16 w bitsLt_bf16_f32) (ix2 r e)).trans ?_
  exact PlainDot.sum_eq dot_S4096x128_S128x128_S4096x128_1_0_0_1_n_n rfl rfl rfl rfl rfl rfl
    (truncf (F := Ideal) .bf16 x bitsLt_bf16_f32) (truncf (F := Ideal) .bf16 w bitsLt_bf16_f32) r e

/-- The value projection is stored narrowed; on the extended reals the narrowing is the identity. -/
theorem v_apply (x : Vec Ideal S4096x128 .f32) (w : Vec Ideal S128x128 .f32) (r : Fin 4096) (e : Fin 128) :
    k0_pay4 x w (ix2 r e) = ∑ d : Fin 128, x (ix2 r d) * w (ix2 d e) := by
  unfold k0_pay4 k0_pay1
  simp only [shapeCast_self]
  refine (truncf_apply (φ := .f32) (ψ := .bf16) _ bitsLt_bf16_f32 (ix2 r e)).trans ?_
  refine (Ideal.matmul_constant_zero_apply dot_S4096x128_S128x128_S4096x128_1_0_0_1_n_n none
    (truncf .bf16 x bitsLt_bf16_f32) (truncf .bf16 w bitsLt_bf16_f32) (ix2 r e)).trans ?_
  exact PlainDot.sum_eq dot_S4096x128_S128x128_S4096x128_1_0_0_1_n_n rfl rfl rfl rfl rfl rfl
    (truncf (F := Ideal) .bf16 x bitsLt_bf16_f32) (truncf (F := Ideal) .bf16 w bitsLt_bf16_f32) r e

/-! ## The scores -/

/-- The score block read at `(r, j)`: query row `r` against key row `j`. -/
theorem s_apply (q k : Vec Ideal S1x1024x128 .f32) (r j : Fin 1024) : k1_pay8 q k (ix2 r j) = sc q k r j := by
  unfold k1_pay8 sc
  refine (Ideal.matmul_constant_zero_apply dot_S1024x128_S1024x128_S1024x1024_1_1_0_0_n_n (some .fp32)
    (shapeCast S1024x128 q shapeCasts_S1x1024x128_S1024x128) (shapeCast S1024x128 k shapeCasts_S1x1024x128_S1024x128)
    (ix2 r j)).trans ?_
  refine (RowsDot.sum_eq dot_S1024x128_S1024x128_S1024x1024_1_1_0_0_n_n rfl rfl rfl rfl rfl rfl
    (shapeCast S1024x128 q shapeCasts_S1x1024x128_S1024x128) (shapeCast S1024x128 k shapeCasts_S1x1024x128_S1024x128)
    r j).trans ?_
  refine Finset.sum_congr rfl fun d _ => ?_
  exact congrArg₂ (· * ·) (shapeCast_1ab_ab_apply q shapeCasts_S1x1024x128_S1024x128 r d)
    (shapeCast_1ab_ab_apply k shapeCasts_S1x1024x128_S1024x128 j d)

/-- A row index with a column coordinate inserted is the pair. -/
theorem lift_row (r j : Fin 1024) : reduces_S1024x1024_S1024.lift (ix1 r) j = ix2 r j := by
  funext d
  match d with
  | ⟨0, _⟩ => rfl
  | ⟨1, _⟩ => rfl

/-- The block's row maximum: the fold of `max` from `-∞` over the row's scores. -/
theorem rowmax_apply (q k : Vec Ideal S1x1024x128 .f32) (r : Fin 1024) :
    multiReduction (F := Ideal) .maximumf [1] S1024 (k1_pay8 q k) 0xFF800000#32 reduces_S1024x1024_S1024 (.inl rfl) rfl (ix1 r)
      = blockMax (sc q k r) := by
  refine (Ideal.multiReduction_maximumf_single (k1_pay8 q k) 0xFF800000#32 reduces_S1024x1024_S1024 (.inl rfl) rfl (ix1 r)).trans ?_
  unfold blockMax
  have h2 : (k1_pay8 q k ∘ reduces_S1024x1024_S1024.lift (ix1 r)) = sc q k r :=
    funext fun j => (congrArg (k1_pay8 q k) (lift_row r j)).trans (s_apply q k r j)
  rw [h2]
  exact congrArg (fun b => Finset.fold max b (sc q k r) Finset.univ) ofBits_neg_inf_f32

/-- The running maximum after the block. -/
theorem m9_apply (q k : Vec Ideal S1x1024x128 .f32) (m0 : Vec Ideal S1024x1 .f32) (r : Fin 1024) :
    k1_pay9 q k m0 (ix2 r 0) = stepM (m0 (ix2 r 0)) (sc q k r) := by
  unfold k1_pay9 stepM
  refine (maximumf_apply _ _ _).trans ?_
  refine congrArg (max (m0 (ix2 r 0))) ?_
  refine (Cert.LibColumn.shapeCast_a_a1_apply _ shapeCasts_S1024_S1024x1 r 0).trans ?_
  exact rowmax_apply q k r

theorem m_apply (q k : Vec Ideal S1x1024x128 .f32) (m0 : Vec Ideal S1024x1 .f32) (r : Fin 1024) :
    k1_pay2 (k1_pay9 q k m0) (ix2 r 0) = stepM (m0 (ix2 r 0)) (sc q k r) := by
  unfold k1_pay2
  simp only [shapeCast_self]
  exact m9_apply q k m0 r

/-! ## The rescaling factor and the block's weights -/

/-- The factor `exp (m_old - m_new)` by which the old denominator and numerator are rescaled. -/
theorem alpha_apply (q k : Vec Ideal S1x1024x128 .f32) (m0 m1 : Vec Ideal S1024x1 .f32) (r : Fin 1024) :
    k1_pay10 q k m0 m1 (ix2 r 0) = Ideal.exp (m1 (ix2 r 0) - stepM (m0 (ix2 r 0)) (sc q k r)) := by
  unfold k1_pay10
  show Ideal.exp (m1 (ix2 r 0) - k1_pay9 q k m0 (ix2 r 0)) = _
  exact congrArg (fun z => Ideal.exp (m1 (ix2 r 0) - z)) (m9_apply q k m0 r)

/-- The weight of key `j` of the block, taken against the new running maximum. -/
theorem p_apply (q k : Vec Ideal S1x1024x128 .f32) (m0 : Vec Ideal S1024x1 .f32) (r j : Fin 1024) :
    k1_pay11 q k m0 (ix2 r j) = Ideal.exp (sc q k r j - stepM (m0 (ix2 r 0)) (sc q k r)) := by
  unfold k1_pay11
  show Ideal.exp (k1_pay8 q k (ix2 r j)
    - broadcastTo S1024x1024 (k1_pay9 q k m0) broadcasts_S1024x1_S1024x1024 (ix2 r j)) = _
  refine congrArg₂ (fun a b => Ideal.exp (a - b)) (s_apply q k r j) ?_
  exact (Cert.LibColumn.broadcastTo_a1_ab_apply (k1_pay9 q k m0) broadcasts_S1024x1_S1024x1024 r j).trans
    (m9_apply q k m0 r)

/-- The block's sum of weights of one row. -/
theorem rowsum_apply (q k : Vec Ideal S1x1024x128 .f32) (m0 : Vec Ideal S1024x1 .f32) (r : Fin 1024) :
    multiReduction (F := Ideal) .add [1] S1024 (k1_pay11 q k m0) 0x00000000#32 reduces_S1024x1024_S1024 (.inl rfl) rfl (ix1 r)
      = ∑ j : Fin 1024, Ideal.exp (sc q k r j - stepM (m0 (ix2 r 0)) (sc q k r)) := by
  refine (Ideal.multiReduction_add_single (k1_pay11 q k m0) 0x00000000#32 reduces_S1024x1024_S1024 (.inl rfl) rfl (ix1 r)).trans ?_
  refine Finset.sum_congr rfl fun j _ => ?_
  exact (congrArg (k1_pay11 q k m0) (lift_row r j)).trans (p_apply q k m0 r j)

/-! ## The running denominator and numerator after the block -/

theorem l_apply (q k : Vec Ideal S1x1024x128 .f32) (m0 l0 : Vec Ideal S1024x1 .f32) (r : Fin 1024) :
    k1_pay12 q k m0 m0 l0 (ix2 r 0) = stepL (m0 (ix2 r 0)) (l0 (ix2 r 0)) (sc q k r) := by
  unfold k1_pay12 stepL
  simp only [shapeCast_self]
  show k1_pay10 q k m0 m0 (ix2 r 0) * l0 (ix2 r 0)
    + shapeCast S1024x1 (multiReduction (F := Ideal) .add [1] S1024 (k1_pay11 q k m0) 0x00000000#32 reduces_S1024x1024_S1024 (.inl rfl) rfl)
        shapeCasts_S1024_S1024x1 (ix2 r 0) = _
  refine congrArg₂ (· + ·) (congrArg (· * l0 (ix2 r 0)) (alpha_apply q k m0 m0 r)) ?_
  refine (Cert.LibColumn.shapeCast_a_a1_apply _ shapeCasts_S1024_S1024x1 r 0).trans ?_
  exact rowsum_apply q k m0 r

/-- The rescaled old numerator. -/
theorem a13_apply (q k : Vec Ideal S1x1024x128 .f32) (m0 m1 : Vec Ideal S1024x1 .f32) (a0 : Vec Ideal S1024x128 .f32)
    (r : Fin 1024) (e : Fin 128) :
    k1_pay13 q k m0 m1 a0 (ix2 r e) = Ideal.exp (m1 (ix2 r 0) - stepM (m0 (ix2 r 0)) (sc q k r)) * a0 (ix2 r e) := by
  unfold k1_pay13
  show broadcastTo S1024x128 (k1_pay10 q k m0 m1) broadcasts_S1024x1_S1024x128 (ix2 r e) * a0 (ix2 r e) = _
  refine congrArg (· * a0 (ix2 r e)) ?_
  exact (Cert.LibColumn.broadcastTo_a1_ab_apply (k1_pay10 q k m0 m1) broadcasts_S1024x1_S1024x128 r e).trans
    (alpha_apply q k m0 m1 r)

theorem a_apply (q k : Vec Ideal S1x1024x128 .f32) (v : Vec Ideal S1x1024x128 .bf16) (m0 : Vec Ideal S1024x1 .f32)
    (a0 : Vec Ideal S1024x128 .f32) (r : Fin 1024) (e : Fin 128) :
    k1_pay1 (k1_pay7 v) (k1_pay11 q k m0) (k1_pay13 q k m0 m0 a0) (ix2 r e)
      = stepA (m0 (ix2 r 0)) (a0 (ix2 r e)) (sc q k r) (fun j => v (ix3 0 j e)) := by
  unfold k1_pay1 stepA
  simp only [shapeCast_self]
  refine (addf_apply _ _ _).trans ?_
  refine congrArg₂ (· + ·) (a13_apply q k m0 m0 a0 r e) ?_
  refine (Ideal.matmul_constant_zero_apply dot_S1024x1024_S1024x128_S1024x128_1_0_0_1_n_n none
    (truncf .bf16 (k1_pay11 q k m0) bitsLt_bf16_f32) (k1_pay7 v) (ix2 r e)).trans ?_
  refine (PlainDot.sum_eq dot_S1024x1024_S1024x128_S1024x128_1_0_0_1_n_n rfl rfl rfl rfl rfl rfl
    (truncf (F := Ideal) .bf16 (k1_pay11 q k m0) bitsLt_bf16_f32) (k1_pay7 v) r e).trans ?_
  refine Finset.sum_congr rfl fun j _ => ?_
  refine congrArg₂ (· * ·) (p_apply q k m0 r j) ?_
  unfold k1_pay7
  exact shapeCast_1ab_ab_apply v shapeCasts_S1x1024x128_S1024x128 j e

end Cert.KernelIdeal.PayValue

end
-- ==== Proof.KI.Step1.lean ====
import proofs.«120248_j30039001268548_2_alg».proof.Proof.KI.Blocks1
import proofs.«120248_j30039001268548_2_alg».proof.Proof.PayValue
import proofs.«120248_j30039001268548_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the TensorCore's buffer contents when the region is entered: a parameter
variable (V : (c : Dev nD) → (b : Ref sig .tc) → Buf (Elt Ideal) ((c : Thread nD τ).loc b))

open Idealize.ShloMosaic.ValueIdx Cert.Attn Cert.KernelIdeal.PayValue

/-! ## One grid point of the attention region as one step of the blockwise arrangement

Everything here is on the extended reals. The region is entered with its query, key and value arrays at `V`;
for batch `b` they are read as functions of (row, column). For query row `R` the scores against all 4096 keys
are `Srow`, and column `e` of the values is `Vcol`. At grid point `t = 16 b + 4 qi + ki` the body sees rows
`1024 qi ..` of the queries and rows `1024 ki ..` of the keys and values, so what it does to row `r` of its three
carried buffers is exactly step `ki` of `Cert.Attn.state` for the row `R = 1024 qi + r`. -/

/-- The query array of batch `b` as a function of row and column; likewise keys and values. -/
def Qa (c : Dev nD) (b : Fin 8) (r : Fin 4096) (e : Fin 128) : EReal := V c main_v5 (ix3 b r e)
def Ka (c : Dev nD) (b : Fin 8) (r : Fin 4096) (e : Fin 128) : EReal := V c main_v6 (ix3 b r e)
def Va (c : Dev nD) (b : Fin 8) (r : Fin 4096) (e : Fin 128) : EReal := V c main_v7 (ix3 b r e)
/-- The scores of query row `R` of batch `b` against every key. -/
def Srow (c : Dev nD) (b : Fin 8) (R : Fin 4096) (j : Fin 4096) : EReal := score (Qa V c b) (Ka V c b) R j
/-- Column `e` of the values of batch `b`. -/
def Vcol (c : Dev nD) (b : Fin 8) (e : Fin 128) (j : Fin 4096) : EReal := Va V c b j e

/-- The scores the body computes at point `t` for row `r` of its query block are the scores of row
    `1024 (t / 4 mod 4) + r` against the keys of block `t mod 4`. -/
theorem sc_eq (c : Dev nD) (t : Fin cfg1.N) (r : Fin 1024) (b : Fin 8) (R : Fin 4096)
    (hb : b.val = t.val / 16) (hR : R.val = t.val / 4 % 4 * 1024 + r.val) :
    sc (iblk1 V c 0 t) (iblk1 V c 1 t) r = fun jj => Srow V c b R (blkIdx (t.val % 4) jj) := by
  funext jj
  have h4 : t.val % 4 < 4 := Nat.mod_lt _ (by decide)
  have hjj : jj.val < 1024 := jj.isLt
  unfold sc Srow score Qa Ka
  refine Finset.sum_congr rfl fun d _ => ?_
  rw [iblk1_q V c t (ix3 0 r d) (ix3 b R d) hb hR rfl,
    iblk1_k V c t (ix3 0 jj d) (ix3 b (blkIdx (t.val % 4) jj) d) hb (by show (t.val % 4 * 1024 + jj.val) % 4096 = _; rw [Nat.mod_eq_of_lt (by omega)]) rfl]

/-- The value column the body sees at point `t` is the value column of block `t mod 4`. -/
theorem vcol_eq (c : Dev nD) (t : Fin cfg1.N) (e : Fin 128) (b : Fin 8) (hb : b.val = t.val / 16) :
    (fun jj : Fin 1024 => iblk1 V c 2 t (ix3 0 jj e)) = fun jj => Vcol V c b e (blkIdx (t.val % 4) jj) := by
  funext jj
  have h4 : t.val % 4 < 4 := Nat.mod_lt _ (by decide)
  have hjj : jj.val < 1024 := jj.isLt
  unfold Vcol Va
  exact iblk1_v V c t (ix3 0 jj e) (ix3 b (blkIdx (t.val % 4) jj) e) hb (by show (t.val % 4 * 1024 + jj.val) % 4096 = _; rw [Nat.mod_eq_of_lt (by omega)]) rfl

/-- ONE STEP. If before point `t` row `r` of the carried buffers holds the triple after `n = t mod 4` blocks for
    query row `R` (column `e`), then the three values the body stores hold the triple after `n + 1` blocks. -/
theorem step_state (c : Dev nD) (t : Fin cfg1.N) (r : Fin 1024) (e : Fin 128) (b : Fin 8) (R : Fin 4096)
    (hb : b.val = t.val / 16) (hR : R.val = t.val / 4 % 4 * 1024 + r.val)
    (m0 l0 : Vec Ideal S1024x1 .f32) (a0 : Vec Ideal S1024x128 .f32)
    (hm : m0 (ix2 r 0) = (state (Srow V c b R) (Vcol V c b e) (t.val % 4)).1)
    (hl : l0 (ix2 r 0) = (state (Srow V c b R) (Vcol V c b e) (t.val % 4)).2.1)
    (ha : a0 (ix2 r e) = (state (Srow V c b R) (Vcol V c b e) (t.val % 4)).2.2) :
    k1_pay2 (k1_pay9 (iblk1 V c 0 t) (iblk1 V c 1 t) m0) (ix2 r 0) = (state (Srow V c b R) (Vcol V c b e) (t.val % 4 + 1)).1
    ∧ k1_pay12 (iblk1 V c 0 t) (iblk1 V c 1 t) m0 m0 l0 (ix2 r 0) = (state (Srow V c b R) (Vcol V c b e) (t.val % 4 + 1)).2.1
    ∧ k1_pay1 (k1_pay7 (iblk1 V c 2 t)) (k1_pay11 (iblk1 V c 0 t) (iblk1 V c 1 t) m0) (k1_pay13 (iblk1 V c 0 t) (iblk1 V c 1 t) m0 m0 a0) (ix2 r e)
        = (state (Srow V c b R) (Vcol V c b e) (t.val % 4 + 1)).2.2 := by
  refine ⟨?_, ?_, ?_⟩
  · rw [m_apply, sc_eq V c t r b R hb hR, hm]; rfl
  · rw [l_apply, sc_eq V c t r b R hb hR, hm, hl]; rfl
  · rw [a_apply, sc_eq V c t r b R hb hR, vcol_eq V c t e b hb, hm, ha]; rfl

/-- The attention output as one function of the region's three input arrays: entry `(b, R, e)` is the blockwise
    output for query row `R` of batch `b` and value column `e`. -/
def Gout (c : Dev nD) : S8x4096x128.Idx → EReal := fun i =>
  flashOut (Srow V c ⟨(i 0).val, (i 0).isLt⟩ ⟨(i 1).val, (i 1).isLt⟩) (Vcol V c ⟨(i 0).val, (i 0).isLt⟩ ⟨(i 2).val, (i 2).isLt⟩)
theorem Gout_ix3 (c : Dev nD) (b : Fin 8) (R : Fin 4096) (e : Fin 128) :
    Gout V c (ix3 b R e) = flashOut (Srow V c b R) (Vcol V c b e) := rfl

end Cert.KernelIdeal.Hand

end
-- ==== Proof.SoftmaxLaw.lean ====
/-
  The blockwise (running maximum / running denominator / running numerator) arrangement of softmax-weighted
  averaging equals the plain arrangement, on the extended reals, for finite scores and values.

  Write s j, v j for the real scores and values.  After n ≥ 1 blocks (the keys j < 1024 n) the running triple is
      m = max of the s j seen so far,   l = Σ exp (s j - m),   a = Σ exp (s j - m) · v j   (sums over the keys seen).
  A block step replaces m by m' = max m b (b the block's own maximum), multiplies l and a by exp (m - m') and adds
  the block's terms taken against m'; since exp (m - m') · exp (s j - m) = exp (s j - m') the three formulas hold
  again with the larger set of keys.  The first block starts from (-∞, 0, 0): exp (-∞ - m') = 0 wipes the (zero)
  old sums.  After four blocks every key has been seen, m is the row maximum M, and
      a / l = (Σ exp (s j - M) v j) / L = Σ (exp (s j - M) / L) v j,     L = Σ exp (s j - M) > 0.
-/
import proofs.«120248_j30039001268548_2_alg».proof.Proof.Spec

noncomputable section

namespace Cert.Attn

open Idealize.ShloMosaic

/-! ## Real numbers inside the extended reals: finite sums and finite maxima -/

/-- The inclusion of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The inclusion of the reals commutes with the binary maximum. -/
theorem coe_max (x y : ℝ) : ((max x y : ℝ) : EReal) = max (x : EReal) (y : EReal) :=
  EReal.coe_strictMono.monotone.map_max

/-- The maximum, folded from -∞, of finitely many (at least one) reals is a real: an upper bound that is attained. -/
theorem fold_max_coe {ι : Type*} {t : Finset ι} (ht : t.Nonempty) (f : ι → ℝ) :
    ∃ b : ℝ, t.fold max ⊥ (fun j => (f j : EReal)) = (b : EReal) ∧ (∀ j ∈ t, f j ≤ b) ∧ ∃ j ∈ t, f j = b := by
  induction ht using Finset.Nonempty.cons_induction with
  | singleton a =>
    refine ⟨f a, ?_, ?_, ?_⟩
    · rw [Finset.fold_singleton]; exact max_bot_right _
    · intro j hj; rw [Finset.mem_singleton] at hj; rw [hj]
    · exact ⟨a, Finset.mem_singleton_self a, rfl⟩
  | cons a t ha ht ih =>
    obtain ⟨b, hb, hle, j0, hj0, hj0b⟩ := ih
    refine ⟨max (f a) b, ?_, ?_, ?_⟩
    · rw [Finset.fold_cons, hb, coe_max]
    · intro j hj
      rw [Finset.mem_cons] at hj
      rcases hj with rfl | hj
      · exact le_max_left _ _
      · exact (hle j hj).trans (le_max_right _ _)
    · rcases le_total (f a) b with h | h
      · exact ⟨j0, Finset.mem_cons.2 (Or.inr hj0), by rw [hj0b, max_eq_right h]⟩
      · exact ⟨a, Finset.mem_cons_self a t, by rw [max_eq_left h]⟩

/-- An attained upper bound is unique. -/
theorem attained_bound_unique {ι : Type*} {t : Finset ι} {f : ι → ℝ} {b c : ℝ}
    (hb : ∀ j ∈ t, f j ≤ b) (hb' : ∃ j ∈ t, f j = b) (hc : ∀ j ∈ t, f j ≤ c) (hc' : ∃ j ∈ t, f j = c) : b = c := by
  obtain ⟨j, hj, rfl⟩ := hb'
  obtain ⟨k, hk, rfl⟩ := hc'
  exact le_antisymm (hc j hj) (hb k hk)

/-! ## The keys seen after n blocks -/

/-- The keys of the first n blocks. -/
def seen (n : ℕ) : Finset (Fin 4096) := Finset.univ.filter (fun j => j.val < n * 1024)

theorem mem_seen (n : ℕ) (j : Fin 4096) : j ∈ seen n ↔ j.val < n * 1024 := by
  simp only [seen, Finset.mem_filter, Finset.mem_univ, true_and]

theorem seen_zero : seen 0 = ∅ := by
  ext j; rw [mem_seen]; simp

theorem seen_four : seen 4 = Finset.univ := by
  ext j; rw [mem_seen]; have := j.isLt; simp only [Finset.mem_univ, iff_true]; omega

theorem blkIdx_val (n : ℕ) (hn : n < 4) (jj : Fin 1024) : (blkIdx n jj).val = n * 1024 + jj.val := by
  have := jj.isLt
  show (n * 1024 + jj.val) % 4096 = _
  exact Nat.mod_eq_of_lt (by omega)

theorem mem_seen_succ (n : ℕ) (hn : n < 4) (j : Fin 4096) :
    j ∈ seen (n + 1) ↔ j ∈ seen n ∨ ∃ jj : Fin 1024, blkIdx n jj = j := by
  rw [mem_seen, mem_seen]
  constructor
  · intro h
    by_cases h' : j.val < n * 1024
    · exact Or.inl h'
    · refine Or.inr ⟨⟨j.val - n * 1024, by omega⟩, ?_⟩
      apply Fin.ext
      rw [blkIdx_val n hn]
      show n * 1024 + (j.val - n * 1024) = j.val
      omega
  · rintro (h | ⟨jj, rfl⟩)
    · omega
    · rw [blkIdx_val n hn]; have := jj.isLt; omega

/-- A sum over the keys of n + 1 blocks is the sum over the first n blocks plus the sum over block n. -/
theorem sum_seen_succ (n : ℕ) (hn : n < 4) (g : Fin 4096 → ℝ) :
    ∑ j ∈ seen (n + 1), g j = ∑ j ∈ seen n, g j + ∑ jj : Fin 1024, g (blkIdx n jj) := by
  have hinj : Function.Injective (blkIdx n) := by
    intro a b hab
    have := congrArg Fin.val hab
    rw [blkIdx_val n hn, blkIdx_val n hn] at this
    exact Fin.ext (by omega)
  have hdisj : Disjoint (seen n) (Finset.univ.image (blkIdx n)) := by
    rw [Finset.disjoint_left]
    intro j hj hj'
    rw [Finset.mem_image] at hj'
    obtain ⟨jj, _, rfl⟩ := hj'
    rw [mem_seen, blkIdx_val n hn] at hj
    omega
  have hset : seen (n + 1) = seen n ∪ Finset.univ.image (blkIdx n) := by
    ext j
    rw [mem_seen_succ n hn, Finset.mem_union, Finset.mem_image]
    simp
  rw [hset, Finset.sum_union hdisj, Finset.sum_image (fun a _ b _ h => hinj h)]

/-! ## One block step on real data -/

theorem stepM_coe (m b : ℝ) (sb : Fin 1024 → EReal) (hb : blockMax sb = (b : EReal)) :
    stepM (m : EReal) sb = ((max m b : ℝ) : EReal) := by
  rw [stepM, hb, coe_max]

theorem stepM_bot (b : ℝ) (sb : Fin 1024 → EReal) (hb : blockMax sb = (b : EReal)) :
    stepM ⊥ sb = (b : EReal) := by
  rw [stepM, hb]; exact max_bot_left _

theorem stepL_coe (m l b : ℝ) (sb : Fin 1024 → ℝ) (hb : blockMax (fun j => (sb j : EReal)) = (b : EReal)) :
    stepL (m : EReal) (l : EReal) (fun j => (sb j : EReal))
      = ((Real.exp (m - max m b) * l + ∑ jj : Fin 1024, Real.exp (sb jj - max m b) : ℝ) : EReal) := by
  rw [stepL, stepM_coe m b _ hb, EReal.coe_add, EReal.coe_mul, coe_sum]
  simp only [← EReal.coe_sub, Ideal.exp_coe]

theorem stepA_coe (m a b : ℝ) (sb vb : Fin 1024 → ℝ) (hb : blockMax (fun j => (sb j : EReal)) = (b : EReal)) :
    stepA (m : EReal) (a : EReal) (fun j => (sb j : EReal)) (fun j => (vb j : EReal))
      = ((Real.exp (m - max m b) * a + ∑ jj : Fin 1024, Real.exp (sb jj - max m b) * vb jj : ℝ) : EReal) := by
  rw [stepA, stepM_coe m b _ hb, EReal.coe_add, EReal.coe_mul, coe_sum]
  simp only [← EReal.coe_sub, Ideal.exp_coe, EReal.coe_mul]

theorem stepL_bot (b : ℝ) (sb : Fin 1024 → ℝ) (hb : blockMax (fun j => (sb j : EReal)) = (b : EReal)) :
    stepL ⊥ 0 (fun j => (sb j : EReal)) = ((∑ jj : Fin 1024, Real.exp (sb jj - b) : ℝ) : EReal) := by
  rw [stepL, stepM_bot b _ hb, EReal.bot_sub, Ideal.exp_bot, zero_mul, zero_add, coe_sum]
  simp only [← EReal.coe_sub, Ideal.exp_coe]

theorem stepA_bot (b : ℝ) (sb vb : Fin 1024 → ℝ) (hb : blockMax (fun j => (sb j : EReal)) = (b : EReal)) :
    stepA ⊥ 0 (fun j => (sb j : EReal)) (fun j => (vb j : EReal))
      = ((∑ jj : Fin 1024, Real.exp (sb jj - b) * vb jj : ℝ) : EReal) := by
  rw [stepA, stepM_bot b _ hb, EReal.bot_sub, Ideal.exp_bot, zero_mul, zero_add, coe_sum]
  simp only [← EReal.coe_sub, Ideal.exp_coe, EReal.coe_mul]

/-! ## The running triple after n ≥ 1 blocks -/

/-- The triple is (maximum, Σ exp (s - maximum), Σ exp (s - maximum) · v) over the keys of the first n blocks. -/
def Inv (s v : Fin 4096 → ℝ) (n : ℕ) (p : EReal × EReal × EReal) : Prop :=
  ∃ mr : ℝ, p.1 = (mr : EReal) ∧ (∀ j ∈ seen n, s j ≤ mr) ∧ (∃ j ∈ seen n, s j = mr) ∧
    p.2.1 = ((∑ j ∈ seen n, Real.exp (s j - mr) : ℝ) : EReal) ∧
    p.2.2 = ((∑ j ∈ seen n, Real.exp (s j - mr) * v j : ℝ) : EReal)

/-- The maximum of block n, as an attained real bound. -/
theorem blockMax_coe (s : Fin 4096 → ℝ) (n : ℕ) :
    ∃ b : ℝ, blockMax (fun jj => ((s (blkIdx n jj) : ℝ) : EReal)) = (b : EReal) ∧
      (∀ jj : Fin 1024, s (blkIdx n jj) ≤ b) ∧ ∃ jj : Fin 1024, s (blkIdx n jj) = b := by
  obtain ⟨b, hb, hle, jj, _, hjj⟩ :=
    fold_max_coe (t := (Finset.univ : Finset (Fin 1024))) ⟨⟨0, by decide⟩, Finset.mem_univ _⟩
      (fun jj => s (blkIdx n jj))
  exact ⟨b, hb, fun jj => hle jj (Finset.mem_univ _), jj, hjj⟩

/-- The first block. -/
theorem inv_one (s v : Fin 4096 → ℝ) :
    Inv s v 1 (state (fun j => (s j : EReal)) (fun j => (v j : EReal)) 1) := by
  obtain ⟨b, hb, hle, jj0, hjj0⟩ := blockMax_coe s 0
  refine ⟨b, ?_, ?_, ?_, ?_, ?_⟩
  · exact stepM_bot b _ hb
  · intro j hj
    rcases (mem_seen_succ 0 (by decide) j).1 hj with h | ⟨jj, rfl⟩
    · rw [seen_zero] at h; exact absurd h (Finset.notMem_empty _)
    · exact hle jj
  · exact ⟨blkIdx 0 jj0, (mem_seen_succ 0 (by decide) _).2 (Or.inr ⟨jj0, rfl⟩), hjj0⟩
  · rw [sum_seen_succ 0 (by decide), seen_zero, Finset.sum_empty, zero_add]
    exact stepL_bot b (fun jj => s (blkIdx 0 jj)) hb
  · rw [sum_seen_succ 0 (by decide), seen_zero, Finset.sum_empty, zero_add]
    exact stepA_bot b (fun jj => s (blkIdx 0 jj)) (fun jj => v (blkIdx 0 jj)) hb

/-- A later block. -/
theorem inv_succ (s v : Fin 4096 → ℝ) (n : ℕ) (hn : n < 4)
    (h : Inv s v n (state (fun j => (s j : EReal)) (fun j => (v j : EReal)) n)) :
    Inv s v (n + 1) (state (fun j => (s j : EReal)) (fun j => (v j : EReal)) (n + 1)) := by
  obtain ⟨mr, hm, hle, ⟨j0, hj0, hj0m⟩, hl, ha⟩ := h
  obtain ⟨b, hb, hble, jj0, hjj0⟩ := blockMax_coe s n
  have hresc : ∀ x : ℝ, Real.exp (mr - max mr b) * Real.exp (x - mr) = Real.exp (x - max mr b) := by
    intro x; rw [← Real.exp_add]; congr 1; ring
  refine ⟨max mr b, ?_, ?_, ?_, ?_, ?_⟩
  · show stepM _ _ = _
    rw [hm]; exact stepM_coe mr b _ hb
  · intro j hj
    rcases (mem_seen_succ n hn j).1 hj with h | ⟨jj, rfl⟩
    · exact (hle j h).trans (le_max_left _ _)
    · exact (hble jj).trans (le_max_right _ _)
  · rcases le_total mr b with h | h
    · exact ⟨blkIdx n jj0, (mem_seen_succ n hn _).2 (Or.inr ⟨jj0, rfl⟩), by rw [hjj0, max_eq_right h]⟩
    · exact ⟨j0, (mem_seen_succ n hn _).2 (Or.inl hj0), by rw [hj0m, max_eq_left h]⟩
  · show stepL _ _ _ = _
    rw [hm, hl, stepL_coe mr _ b (fun jj => s (blkIdx n jj)) hb, sum_seen_succ n hn, Finset.mul_sum]
    simp only [hresc]
  · show stepA _ _ _ _ = _
    rw [hm, ha, stepA_coe mr _ b (fun jj => s (blkIdx n jj)) (fun jj => v (blkIdx n jj)) hb, sum_seen_succ n hn,
      Finset.mul_sum]
    simp only [← mul_assoc, hresc]

/-- After all four blocks. -/
theorem inv_four (s v : Fin 4096 → ℝ) :
    Inv s v 4 (state (fun j => (s j : EReal)) (fun j => (v j : EReal)) 4) :=
  inv_succ s v 3 (by decide) (inv_succ s v 2 (by decide) (inv_succ s v 1 (by decide) (inv_one s v)))

/-! ## The plain arrangement on real data, and the comparison -/

/-- Online softmax over four blocks of 1024 keys is plain softmax, for finite scores and values. -/
theorem flash_eq_ref (S V : Fin 4096 → EReal) (hS : ∀ j, ∃ r : ℝ, S j = (r : EReal))
    (hV : ∀ j, ∃ r : ℝ, V j = (r : EReal)) :
    flashOut S V = refOut S V := by
  choose s hs using hS
  choose v hv using hV
  obtain rfl : S = fun j => (s j : EReal) := funext hs
  obtain rfl : V = fun j => (v j : EReal) := funext hv
  -- the blockwise side
  obtain ⟨mr, -, hle, hatt, hl, ha⟩ := inv_four s v
  rw [seen_four] at hle hatt hl ha
  -- the row maximum
  obtain ⟨M, hM, hMle, hMatt⟩ :=
    fold_max_coe (t := (Finset.univ : Finset (Fin 4096))) ⟨⟨0, by decide⟩, Finset.mem_univ _⟩ s
  obtain rfl : mr = M := attained_bound_unique hle hatt hMle hMatt
  have hrefMax : refMax (fun j => (s j : EReal)) = (mr : EReal) := by
    rw [refMax, hM]; exact max_bot_left _
  have hP : ∀ j, refP (fun j => (s j : EReal)) j = ((Real.exp (s j - mr) : ℝ) : EReal) := by
    intro j; rw [refP, hrefMax, ← EReal.coe_sub, Ideal.exp_coe]
  have hL : refL (fun j => (s j : EReal)) = ((∑ j : Fin 4096, Real.exp (s j - mr) : ℝ) : EReal) := by
    rw [refL, zero_add, coe_sum]; exact Finset.sum_congr rfl (fun j _ => hP j)
  have hLpos : (0 : ℝ) < ∑ j : Fin 4096, Real.exp (s j - mr) :=
    Finset.sum_pos (fun j _ => Real.exp_pos _) ⟨⟨0, by decide⟩, Finset.mem_univ _⟩
  have hLne : (∑ j : Fin 4096, Real.exp (s j - mr)) ≠ 0 := hLpos.ne'
  rw [flashOut, refOut, hl, ha, Ideal.div_coe hLne, hL]
  simp only [hP, Ideal.div_coe hLne, ← EReal.coe_mul, ← coe_sum]
  refine congrArg Real.toEReal ?_
  rw [Finset.sum_mul]
  exact Finset.sum_congr rfl (fun j _ => by ring)

end Cert.Attn

end
-- ==== Proof.Finite.lean ====
/-
  Finiteness.

  Part 1: a sum of finitely many products of reals is a real, so the projections x · wᵀ and the scores q · kᵀ of real
  arrays are real, and the blockwise and the plain arrangement of attention (Spec) agree on them (SoftmaxLaw).

  Part 2: the precondition says, of each of the four argument arrays, that |x| < +∞ at every entry, the four
  conjunctions (one reduction by "and" over all axes each) joined by "and".  An extended real x with max x (-x) < +∞ is
  neither infinity, hence a real.
-/
import proofs.«120248_j30039001268548_2_alg».proof.Proof.Spec
import proofs.«120248_j30039001268548_2_alg».proof.Proof.SoftmaxLaw
import proofs.«120248_j30039001268548_2_alg».proof.Defs
import Idealize.ShloMosaic.Lib.ReduceAll
import Idealize.ShloMosaic.Lib.ValueIdx

noncomputable section

namespace Cert.Attn

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type*} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    obtain ⟨x, hx⟩ := h a (Finset.mem_insert_self a t)
    obtain ⟨y, hy⟩ := ih (fun i hi => h i (Finset.mem_insert_of_mem hi))
    exact ⟨x + y, by rw [hx, hy, EReal.coe_add]⟩

theorem proj_real {x : Fin 8 → Fin 4096 → Fin 128 → EReal} {w : Fin 128 → Fin 128 → EReal}
    (hx : ∀ b r d, IsReal (x b r d)) (hw : ∀ e d, IsReal (w e d)) (b : Fin 8) (r : Fin 4096) (e : Fin 128) :
    IsReal (proj x w b r e) :=
  isReal_sum _ _ (fun d _ => (hx b r d).mul (hw e d))

theorem score_real {q k : Fin 4096 → Fin 128 → EReal} (hq : ∀ r e, IsReal (q r e)) (hk : ∀ r e, IsReal (k r e))
    (r j : Fin 4096) : IsReal (score q k r j) :=
  isReal_sum _ _ (fun e _ => (hq r e).mul (hk j e))

/-- Attention of real inputs: the blockwise arrangement equals the plain one, at every batch, query row and column. -/
theorem attn_eq {x : Fin 8 → Fin 4096 → Fin 128 → EReal} {wq wk wv : Fin 128 → Fin 128 → EReal}
    (hx : ∀ b r d, IsReal (x b r d)) (hq : ∀ e d, IsReal (wq e d)) (hk : ∀ e d, IsReal (wk e d))
    (hv : ∀ e d, IsReal (wv e d)) (b : Fin 8) (r : Fin 4096) (e : Fin 128) :
    flashOut (fun j => score (proj x wq b) (proj x wk b) r j) (fun j => proj x wv b j e)
      = refOut (fun j => score (proj x wq b) (proj x wk b) r j) (fun j => proj x wv b j e) :=
  flash_eq_ref _ _
    (fun j => score_real (fun r e => proj_real hx hq b r e) (fun r e => proj_real hx hk b r e) r j)
    (fun j => proj_real hx hv b j e)

end Cert.Attn

namespace Cert.KernelIdeal.Fin

open Idealize.ShloMosaic Idealize.SL.Sem Cert.Attn

/-- +∞ is what the f32 pattern 0x7F800000 denotes. -/
theorem inf_eq_top : Ideal.ofBits .f32 0x7F800000#32 = (⊤ : EReal) := by simp [Ideal.ofBits, Ideal.ieee]

/-- |x| < +∞ makes x a real. -/
theorem isReal_of_abs_lt_inf (x : EReal)
    (h : Ideal.cmp .olt (max x (-x)) (Ideal.ofBits .f32 0x7F800000#32) = 1#1) : IsReal x := by
  rw [inf_eq_top] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- One conjunction over all axes ("all entries satisfy |x| < +∞") read back at an entry. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) (i : s.Idx) : IsReal (x i) :=
  isReal_of_abs_lt_inf (x i) (Host.reduce_andi_all _ _ hr hu ValueIdx.ix0 e i)

theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread _ Cert.KernelIdeal.τ).loc Cert.KernelIdeal.main_arg0) i))
    ∧ (∀ i, IsReal (m ((c.tc : Thread _ Cert.KernelIdeal.τ).loc Cert.KernelIdeal.main_arg1) i))
    ∧ (∀ i, IsReal (m ((c.tc : Thread _ Cert.KernelIdeal.τ).loc Cert.KernelIdeal.main_arg2) i))
    ∧ (∀ i, IsReal (m ((c.tc : Thread _ Cert.KernelIdeal.τ).loc Cert.KernelIdeal.main_arg3) i)) := by
  have e := congrFun (h c) ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨all_real _ _ _ _ e0, all_real _ _ _ _ e1, all_real _ _ _ _ e2, all_real _ _ _ _ e3⟩

end Cert.KernelIdeal.Fin

end
-- ==== Proof.KI.Pieces1.lean ====
import proofs.«120248_j30039001268548_2_alg».proof.Proof.KI.Run1C
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## What each case of the attention body leaves in its carried buffers, as values

The body stores each carried buffer whole, once (after the reset's store, when the reset is taken); so what a
case leaves in a buffer is the payload of its last store, a function of the three input blocks and of what the
buffers held before (the reset's constants, when the reset is taken). -/

theorem hz2 : (![0, 0] : Fin 2 → Nat) = fun _ => 0 := funext fun a => by fin_cases a <;> rfl
theorem hz3 : (![0, 0, 0] : Fin 3 → Nat) = fun _ => 0 := funext fun a => by fin_cases a <;> rfl

set_option pp.maxSteps 20000
set_option pp.deepTerms false

/-- Without the reset: the running maximum becomes the maximum of the old one and the block's row maxima. -/
theorem piecesB_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec F S1x1024x128 .f32) (x2 : Vec F S1x1024x128 .bf16) (xs0 xs1 : Vec F S1024x1 .f32) (xs2 : Vec F S1024x128 .f32) :
    View.canon (kernelRun1_B c i arg3 harg3 arg4 harg4 arg5 harg5 arg6 harg6 arg7 harg7 arg8 harg8 arg9 harg9 hc0 hc1 x0 x1 x2 xs0 xs1 xs2).2.1 = k1_pay2 (k1_pay9 x0 x1 xs0) := by
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

/-- Without the reset: the running denominator. -/
theorem piecesB_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec F S1x1024x128 .f32) (x2 : Vec F S1x1024x128 .bf16) (xs0 xs1 : Vec F S1024x1 .f32) (xs2 : Vec F S1024x128 .f32) :
    View.canon (kernelRun1_B c i arg3 harg3 arg4 harg4 arg5 harg5 arg6 harg6 arg7 harg7 arg8 harg8 arg9 harg9 hc0 hc1 x0 x1 x2 xs0 xs1 xs2).2.2.1 = k1_pay12 x0 x1 xs0 xs0 xs1 := by
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

/-- Without the reset: the running numerator. -/
theorem piecesB_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec F S1x1024x128 .f32) (x2 : Vec F S1x1024x128 .bf16) (xs0 xs1 : Vec F S1024x1 .f32) (xs2 : Vec F S1024x128 .f32) :
    View.canon (kernelRun1_B c i arg3 harg3 arg4 harg4 arg5 harg5 arg6 harg6 arg7 harg7 arg8 harg8 arg9 harg9 hc0 hc1 x0 x1 x2 xs0 xs1 xs2).2.2.2.1
      = k1_pay1 (k1_pay7 x2) (k1_pay11 x0 x1 xs0) (k1_pay13 x0 x1 xs0 xs0 xs2) := by
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

/-- With the reset: as without it, from the reset's constants. -/
theorem piecesA_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec F S1x1024x128 .f32) (x2 : Vec F S1x1024x128 .bf16) :
    View.canon (kernelRun1_A c i arg3 harg3 arg4 harg4 arg5 harg5 arg6 harg6 arg7 harg7 arg8 harg8 arg9 harg9 hc0 hc1 x0 x1 x2).2.1 = k1_pay2 (k1_pay9 x0 x1 k1_pay4) := by
  unfold kernelRun1_A
  dsimp only
  sl_unfold_words
  rw [View.canon_cons_unit_zero (S := S1024x1) hz2]
  simp only [View.readAt_eq_ld, harg3.read_unread, harg4.read_unread, harg5.read_unread,
    View.ld_unit_zero (S := S1x1024x128) hz3, View.readCov_unit_zero (S := S1024x1) _ hz2, View.readCov_unit_zero (S := S1024x128) _ hz2]

theorem piecesA_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec F S1x1024x128 .f32) (x2 : Vec F S1x1024x128 .bf16) :
    View.canon (kernelRun1_A c i arg3 harg3 arg4 harg4 arg5 harg5 arg6 harg6 arg7 harg7 arg8 harg8 arg9 harg9 hc0 hc1 x0 x1 x2).2.2.1 = k1_pay12 x0 x1 k1_pay4 k1_pay4 k1_pay5 := by
  unfold kernelRun1_A
  dsimp only
  sl_unfold_words
  rw [View.canon_cons_unit_zero (S := S1024x1) hz2]
  simp only [View.readAt_eq_ld, harg3.read_unread, harg4.read_unread, harg5.read_unread,
    View.ld_unit_zero (S := S1x1024x128) hz3, View.readCov_unit_zero (S := S1024x1) _ hz2, View.readCov_unit_zero (S := S1024x128) _ hz2]

theorem piecesA_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec F S1x1024x128 .f32) (x2 : Vec F S1x1024x128 .bf16) :
    View.canon (kernelRun1_A c i arg3 harg3 arg4 harg4 arg5 harg5 arg6 harg6 arg7 harg7 arg8 harg8 arg9 harg9 hc0 hc1 x0 x1 x2).2.2.2.1
      = k1_pay1 (k1_pay7 x2) (k1_pay11 x0 x1 k1_pay4) (k1_pay13 x0 x1 k1_pay4 k1_pay4 k1_pay6) := by
  unfold kernelRun1_A
  dsimp only
  sl_unfold_words
  rw [View.canon_cons_unit_zero (S := S1024x128) hz2]
  simp only [View.readAt_eq_ld, harg3.read_unread, harg4.read_unread, harg5.read_unread,
    View.ld_unit_zero (S := S1x1024x128) hz3, View.readCov_unit_zero (S := S1024x1) _ hz2, View.readCov_unit_zero (S := S1024x128) _ hz2]

/-- At the last key block (no reset, the output stored): the carried buffers as without the reset. -/
theorem piecesC_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec F S1x1024x128 .f32) (x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 x0 x1 x2 xs0 xs1 xs2).2.1 = k1_pay2 (k1_pay9 x0 x1 xs0) := by
  unfold kernelRun1_C
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

theorem piecesC_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec F S1x1024x128 .f32) (x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 x0 x1 x2 xs0 xs1 xs2).2.2.1 = k1_pay12 x0 x1 xs0 xs0 xs1 := by
  unfold kernelRun1_C
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

theorem piecesC_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec F S1x1024x128 .f32) (x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 x0 x1 x2 xs0 xs1 xs2).2.2.2.1
      = k1_pay1 (k1_pay7 x2) (k1_pay11 x0 x1 xs0) (k1_pay13 x0 x1 xs0 xs0 xs2) := by
  unfold kernelRun1_C
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2]

/-- At the last key block the output block is the new numerator divided, row by row, by the new denominator. -/
theorem piecesC_o (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec F S1x1024x128 .f32) (x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 x0 x1 x2 xs0 xs1 xs2).1
      = k1_pay3 (k1_pay1 (k1_pay7 x2) (k1_pay11 x0 x1 xs0) (k1_pay13 x0 x1 xs0 xs0 xs2)) (k1_pay12 x0 x1 xs0 xs0 xs1) := by
  unfold kernelRun1_C
  dsimp only
  sl_unfold_words
  rw [View.canon_unit_zero hz3]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

end Cert.KernelIdeal.Hand

end
-- ==== Proof.KI.Cover1.lean ====
import proofs.«120248_j30039001268548_2_alg».proof.Proof.KI.Blocks1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The output blocks of the attention region fill the output array

The output window's block at point `t = 16 b + 4 qi + ki` is rows `1024 qi … 1024 qi + 1023` of batch `b`, all 128
columns, and it is written back at the points with `ki = 3`. Every entry `(b, r, e)` of the array therefore lies in
the block written back at `t = 16 b + 4 (r / 1024) + 3`. -/

/-- An index of the output array is in point `t`'s block iff each coordinate is in the block's range on its axis. -/
theorem mem_blk1_3 (t : Fin cfg1.N) (i : S8x4096x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v8).slice (win1_3.rect t)).set ↔ _
  rw [View.set_slice_whole, Rect.mem_set_unit]
  exact Iff.rfl

/-- Every index of the output array is in a block that is written back. -/
theorem cover1_3 (i : S8x4096x128.Idx) : ∃ t : Fin cfg1.N, (cfg1.win 3).flush t = true ∧ i ∈ ((cfg1.win 3).blk t).view.set := by
  have hN : cfg1.N = 128 := N_1
  have hi0 : (i 0).val < 8 := (i 0).isLt
  have hi1 : (i 1).val < 4096 := (i 1).isLt
  have hi2 : (i 2).val < 128 := (i 2).isLt
  refine ⟨⟨16 * (i 0).val + 4 * ((i 1).val / 1024) + 3, by omega⟩, ?_, ?_⟩
  · rw [flush1_3]; show (16 * (i 0).val + 4 * ((i 1).val / 1024) + 3) % 4 = 3; omega
  · rw [mem_blk1_3]
    obtain ⟨-, -, -, -, -, -, -, -, -, e0, e1, e2⟩ := idx1_facts ⟨16 * (i 0).val + 4 * ((i 1).val / 1024) + 3, by omega⟩
    have v : (⟨16 * (i 0).val + 4 * ((i 1).val / 1024) + 3, by omega⟩ : Fin cfg1.N).val = 16 * (i 0).val + 4 * ((i 1).val / 1024) + 3 := rfl
    rw [v] at e0 e1
    intro a
    match a with
    | ⟨0, _⟩ =>
      show win1_3.index _ (0 : Fin 3) * 1 ≤ (i 0).val ∧ (i 0).val < win1_3.index _ (0 : Fin 3) * 1 + 1
      rw [e0]; omega
    | ⟨1, _⟩ =>
      show win1_3.index _ (1 : Fin 3) * 1024 ≤ (i 1).val ∧ (i 1).val < win1_3.index _ (1 : Fin 3) * 1024 + 1024
      rw [e1]; omega
    | ⟨2, _⟩ =>
      show win1_3.index _ (2 : Fin 3) * 128 ≤ (i 2).val ∧ (i 2).val < win1_3.index _ (2 : Fin 3) * 128 + 128
      rw [e2]; omega

end Cert.KernelIdeal.Hand

end
-- ==== Proof.KI.Value1.lean ====
import proofs.«120248_j30039001268548_2_alg».proof.Proof.KI.Region1
import proofs.«120248_j30039001268548_2_alg».proof.Proof.KI.Pieces1
import proofs.«120248_j30039001268548_2_alg».proof.Proof.KI.Step1
import proofs.«120248_j30039001268548_2_alg».proof.Proof.KI.Cover1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the TensorCore's buffer contents when the region is entered: a parameter
variable (V : (c : Dev nD) → (b : Ref sig .tc) → Buf (Elt Ideal) ((c : Thread nD τ).loc b))

open Idealize.ShloMosaic.ValueIdx Cert.Attn Cert.KernelIdeal.PayValue

/-! ## What the attention region leaves in its output array

On the extended reals. Each case of the body leaves in a carried buffer the payload of its last store; read at a
row, that payload is one step of the blockwise arrangement (`step_state`). By induction along the grid, after the
point `t = 16 b + 4 qi + ki` row `r` of the three carried buffers holds the triple (maximum, denominator,
numerator) after `ki + 1` key blocks for query row `1024 qi + r` of batch `b`; at `ki = 3` the block written back
is numerator over denominator after all four blocks, and those blocks tile the output array. -/

/-! ### The cases' contents as payloads -/

theorem soutA_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec Ideal S1x1024x128 .f32) (x2 : Vec Ideal S1x1024x128 .bf16) :
    sout1_A_0 c i arg3 harg3 arg4 harg4 arg5 harg5 arg6 harg6 arg7 harg7 arg8 harg8 arg9 harg9 hc0 hc1 x0 x1 x2 = k1_pay2 (k1_pay9 x0 x1 (k1_pay4 (F := Ideal))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  exact piecesA_m c i arg3 harg3 arg4 harg4 arg5 harg5 arg6 harg6 arg7 harg7 arg8 harg8 arg9 harg9 hc0 hc1 x0 x1 x2

theorem soutA_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec Ideal S1x1024x128 .f32) (x2 : Vec Ideal S1x1024x128 .bf16) :
    sout1_A_1 c i arg3 harg3 arg4 harg4 arg5 harg5 arg6 harg6 arg7 harg7 arg8 harg8 arg9 harg9 hc0 hc1 x0 x1 x2 = k1_pay12 x0 x1 (k1_pay4 (F := Ideal)) (k1_pay4 (F := Ideal)) (k1_pay5 (F := Ideal)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  exact piecesA_l c i arg3 harg3 arg4 harg4 arg5 harg5 arg6 harg6 arg7 harg7 arg8 harg8 arg9 harg9 hc0 hc1 x0 x1 x2

theorem soutA_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 : Vec Ideal S1x1024x128 .f32) (x2 : Vec Ideal S1x1024x128 .bf16) :
    sout1_A_2 c i arg3 harg3 arg4 harg4 arg5 harg5 arg6 harg6 arg7 harg7 arg8 harg8 arg9 harg9 hc0 hc1 x0 x1 x2 = k1_pay1 (k1_pay7 x2) (k1_pay11 x0 x1 (k1_pay4 (F := Ideal))) (k1_pay13 x0 x1 (k1_pay4 (F := Ideal)) (k1_pay4 (F := Ideal)) (k1_pay6 (F := Ideal))) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  exact piecesA_a c i arg3 harg3 arg4 harg4 arg5 harg5 arg6 harg6 arg7 harg7 arg8 harg8 arg9 harg9 hc0 hc1 x0 x1 x2

theorem soutB_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec Ideal S1x1024x128 .f32) (x2 : Vec Ideal S1x1024x128 .bf16) (xs0 xs1 : Vec Ideal S1024x1 .f32) (xs2 : Vec Ideal S1024x128 .f32) :
    sout1_B_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  exact piecesB_m c i arg3 harg3 arg4 harg4 arg5 harg5 arg6 harg6 arg7 harg7 arg8 harg8 arg9 harg9 hc0 hc1 x0 x1 x2 xs0 xs1 xs2

theorem soutB_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec Ideal S1x1024x128 .f32) (x2 : Vec Ideal S1x1024x128 .bf16) (xs0 xs1 : Vec Ideal S1024x1 .f32) (xs2 : Vec Ideal S1024x128 .f32) :
    sout1_B_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  exact piecesB_l c i arg3 harg3 arg4 harg4 arg5 harg5 arg6 harg6 arg7 harg7 arg8 harg8 arg9 harg9 hc0 hc1 x0 x1 x2 xs0 xs1 xs2

theorem soutB_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 : Vec Ideal S1x1024x128 .f32) (x2 : Vec Ideal S1x1024x128 .bf16) (xs0 xs1 : Vec Ideal S1024x1 .f32) (xs2 : Vec Ideal S1024x128 .f32) :
    sout1_B_2 c i arg3 harg3 arg4 harg4 arg5 harg5 arg6 harg6 arg7 harg7 arg8 harg8 arg9 harg9 hc0 hc1 x0 x1 x2 xs0 xs1 xs2 = k1_pay1 (k1_pay7 x2) (k1_pay11 x0 x1 xs0) (k1_pay13 x0 x1 xs0 xs0 xs2) := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  exact piecesB_a c i arg3 harg3 arg4 harg4 arg5 harg5 arg6 harg6 arg7 harg7 arg8 harg8 arg9 harg9 hc0 hc1 x0 x1 x2 xs0 xs1 xs2

theorem soutC_m (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec Ideal S1x1024x128 .f32) (x2 : Vec Ideal S1x1024x128 .bf16) (xs0 xs1 : Vec Ideal S1024x1 .f32) (xs2 : Vec Ideal S1024x128 .f32) :
    sout1_C_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  exact piecesC_m c i arg3 harg3 arg4 harg4 arg5 harg5 arg6 harg6 arg7 harg7 arg8 harg8 arg9 harg9 hc0 hc1 x0 x1 x2 xs0 xs1 xs2

theorem soutC_l (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec Ideal S1x1024x128 .f32) (x2 : Vec Ideal S1x1024x128 .bf16) (xs0 xs1 : Vec Ideal S1024x1 .f32) (xs2 : Vec Ideal S1024x128 .f32) :
    sout1_C_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  exact piecesC_l c i arg3 harg3 arg4 harg4 arg5 harg5 arg6 harg6 arg7 harg7 arg8 harg8 arg9 harg9 hc0 hc1 x0 x1 x2 xs0 xs1 xs2

theorem soutC_a (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec Ideal S1x1024x128 .f32) (x2 : Vec Ideal S1x1024x128 .bf16) (xs0 xs1 : Vec Ideal S1024x1 .f32) (xs2 : Vec Ideal S1024x128 .f32) :
    sout1_C_2 c i arg3 harg3 arg4 harg4 arg5 harg5 arg6 harg6 arg7 harg7 arg8 harg8 arg9 harg9 hc0 hc1 x0 x1 x2 xs0 xs1 xs2 = k1_pay1 (k1_pay7 x2) (k1_pay11 x0 x1 xs0) (k1_pay13 x0 x1 xs0 xs0 xs2) := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  exact piecesC_a c i arg3 harg3 arg4 harg4 arg5 harg5 arg6 harg6 arg7 harg7 arg8 harg8 arg9 harg9 hc0 hc1 x0 x1 x2 xs0 xs1 xs2

theorem outC_o (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 : Vec Ideal S1x1024x128 .f32) (x2 : Vec Ideal S1x1024x128 .bf16) (xs0 xs1 : Vec Ideal S1024x1 .f32) (xs2 : Vec Ideal S1024x128 .f32) :
    out1_C_3 c i arg3 harg3 arg4 harg4 arg5 harg5 arg6 harg6 arg7 harg7 arg8 harg8 arg9 harg9 hc0 hc1 x0 x1 x2 xs0 xs1 xs2 = k1_pay3 (k1_pay1 (k1_pay7 x2) (k1_pay11 x0 x1 xs0) (k1_pay13 x0 x1 xs0 xs0 xs2)) (k1_pay12 x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  exact piecesC_o c i arg3 harg3 arg4 harg4 arg5 harg5 arg6 harg6 arg7 harg7 arg8 harg8 arg9 harg9 hc0 hc1 x0 x1 x2 xs0 xs1 xs2

/-! ### The carried buffers along the grid -/

theorem state_zero (S W : Fin 4096 → EReal) : state S W 0 = (⊥, 0, 0) := rfl

/-- After point `n` row `r` of the carried buffers holds the triple after `n mod 4 + 1` key blocks for the query
    row the point's block places `r` at. -/
theorem scratch_inv (c : Dev nD) : ∀ (n : ℕ) (h : n < cfg1.N) (r : Fin 1024) (e : Fin 128) (b : Fin 8) (R : Fin 4096),
    b.val = n / 16 → R.val = n / 4 % 4 * 1024 + r.val →
    (outsAt1 V c n h).2.1 (ix2 r 0) = (state (Srow V c b R) (Vcol V c b e) (n % 4 + 1)).1
    ∧ (outsAt1 V c n h).2.2.1 (ix2 r 0) = (state (Srow V c b R) (Vcol V c b e) (n % 4 + 1)).2.1
    ∧ (outsAt1 V c n h).2.2.2 (ix2 r e) = (state (Srow V c b R) (Vcol V c b e) (n % 4 + 1)).2.2 := by
  intro n
  induction n with
  | zero =>
    intro h r e b R hb hR
    have e0 := outsAt1_A V c ⟨0, h⟩ rfl (by show ¬ 0 % 4 = 3; decide)
    rw [show outsAt1 V c 0 h = _ from e0]
    dsimp only
    rw [soutA_m, soutA_l, soutA_a]
    exact step_state V c ⟨0, h⟩ r e b R hb hR (k1_pay4 (F := Ideal)) (k1_pay5 (F := Ideal)) (k1_pay6 (F := Ideal)) (reset_m r) (reset_l r) (reset_a r e)
  | succ k ih =>
    intro h r e b R hb hR
    by_cases h0 : (k + 1) % 4 = 0
    · have e0 := outsAt1_A V c ⟨k + 1, h⟩ h0 (by show ¬ (k + 1) % 4 = 3; omega)
      rw [show outsAt1 V c (k + 1) h = _ from e0]
      dsimp only
      rw [soutA_m, soutA_l, soutA_a]
      refine step_state V c ⟨k + 1, h⟩ r e b R hb hR (k1_pay4 (F := Ideal)) (k1_pay5 (F := Ideal)) (k1_pay6 (F := Ideal)) ?_ ?_ ?_
      · show _ = (state _ _ ((k + 1) % 4)).1; rw [h0]; exact reset_m r
      · show _ = (state _ _ ((k + 1) % 4)).2.1; rw [h0]; exact reset_l r
      · show _ = (state _ _ ((k + 1) % 4)).2.2; rw [h0]; exact reset_a r e
    · have hk : k % 4 + 1 = (k + 1) % 4 := by omega
      obtain ⟨im, il, ia⟩ := ih (Nat.lt_of_succ_lt h) r e b R (by omega) (by omega)
      rw [hk] at im il ia
      by_cases h1 : (k + 1) % 4 = 3
      · have e0 := outsAt1_C V c ⟨k + 1, h⟩ h0 h1
        rw [show outsAt1 V c (k + 1) h = _ from e0]
        dsimp only
        rw [soutC_m, soutC_l, soutC_a]
        exact step_state V c ⟨k + 1, h⟩ r e b R hb hR _ _ _ im il ia
      · have e0 := outsAt1_B V c ⟨k + 1, h⟩ h0 h1
        rw [show outsAt1 V c (k + 1) h = _ from e0]
        dsimp only
        rw [soutB_m, soutB_l, soutB_a]
        exact step_state V c ⟨k + 1, h⟩ r e b R hb hR _ _ _ im il ia

/-- At a point that writes back (`t mod 4 = 3`) the output block holds, at row `r` and column `e`, the blockwise
    output of the query row the block places `r` at. -/
theorem out_eq (c : Dev nD) (t : Fin cfg1.N) (h3 : t.val % 4 = 3) (r : Fin 1024) (e : Fin 128) (b : Fin 8) (R : Fin 4096)
    (hb : b.val = t.val / 16) (hR : R.val = t.val / 4 % 4 * 1024 + r.val) :
    (outsAt1 V c t.val t.isLt).1 (ix3 0 r e) = flashOut (Srow V c b R) (Vcol V c b e) := by
  obtain ⟨-, il, ia⟩ := scratch_inv V c t.val t.isLt r e b R hb hR
  have e0 := outsAt1_C V c t (by omega) h3
  rw [e0] at il ia ⊢
  dsimp only at il ia ⊢
  rw [soutC_l] at il
  rw [soutC_a] at ia
  rw [outC_o, o_apply, il, ia, h3]
  rfl

/-! ### The output array -/

/-- What a writing point writes back is its block of `Gout`. -/
theorem flushed1_eq (c : Dev nD) (t : Fin cfg1.N) (hf : (cfg1.win 3).flush t = true) :
    (dat1 V c).flushed 3 t = ((cfg1.win 3).blk t).view.read (Elt Ideal) (Gout V c) := by
  have h3 : t.val % 4 = 3 := (flush1_3 t).mp hf
  have hN : t.val < 128 := lt_of_lt_of_eq t.isLt N_1
  obtain ⟨-, -, -, -, -, -, -, -, -, e0, e1, e2⟩ := idx1_facts t
  show (cfg1.win 3).cut (grid1.coords t) ((dat1 V c).after 3 t) = _
  rw [after1_3]
  funext j
  obtain ⟨j0, r, e, rfl⟩ : ∃ (j0 : Fin 1) (r : Fin 1024) (e : Fin 128), j = ix3 j0 r e := ⟨j 0, j 1, j 2, eq_ix3 j⟩
  obtain rfl : j0 = 0 := Subsingleton.elim _ _
  have hr : r.val < 1024 := r.isLt
  show (outsAt1 V c t.val t.isLt).1 (ix3 0 r e) = Gout V c (((cfg1.win 3).blk t).view.emb (ix3 0 r e))
  have hemb : ((cfg1.win 3).blk t).view.emb (ix3 0 r e) = ix3 (⟨t.val / 16, by omega⟩ : Fin 8) (⟨t.val / 4 % 4 * 1024 + r.val, by omega⟩ : Fin 4096) e := by
    funext a; apply Fin.ext
    match a with
    | ⟨0, _⟩ => show win1_3.index t (0 : Fin 3) * 1 + 1 * 0 = t.val / 16; omega
    | ⟨1, _⟩ => show win1_3.index t (1 : Fin 3) * 1024 + 1 * r.val = t.val / 4 % 4 * 1024 + r.val; omega
    | ⟨2, _⟩ => show win1_3.index t (2 : Fin 3) * 128 + 1 * e.val = e.val; omega
  rw [hemb, Gout_ix3]
  exact out_eq V c t h3 r e _ _ rfl rfl

/-- THE OUTPUT ARRAY after the region: `Gout` of the region's three input arrays. -/
theorem final1 (c : Dev nD) : (dat1 V c).arrAt 3 cfg1.N = Gout V c :=
  (dat1 V c).arrAt_eq_of_cover 3 (Gout V c) (flushed1_eq V c) (cover1_3)

end Cert.KernelIdeal.Hand

end
-- ==== Proof.KI.HostGlue.lean ====
/-
  The layout operations the host runs around the two kernels, read at an index.

  Before the first kernel the input [8, 4096, 128] is flattened to [32768, 128] and each weight matrix is transposed;
  between the kernels the three projected arrays [32768, 128] are split back to [8, 4096, 128]. A flattening keeps the
  row-major position, so row r of batch b is row 4096 b + r of the flat array; a transposed matrix at (k, e) is the
  matrix at (e, k). Nothing here looks at the float values: the statements hold for every float instance.
-/
import proofs.«120248_j30039001268548_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- The row of the flat array that holds row `r` of batch `b`: row `4096 b + r`. -/
abbrev flatRow (b : Fin 8) (r : Fin 4096) : Fin 32768 :=
  ⟨b.val * 4096 + r.val, by have := b.isLt; have := r.isLt; omega⟩

/-- Flattening the two leading axes keeps the row-major position: the flat array at (4096 b + r, k) is the array at
    (b, r, k). -/
theorem flatten_apply {α : Type} (x : S8x4096x128.Idx → α) (h : S8x4096x128.ShapeCasts S32768x128)
    (b : Fin 8) (r : Fin 4096) (k : Fin 128) :
    shapeCast S32768x128 x h (ix2 (flatRow b r) k) = x (ix3 b r k) :=
  shapeCast_apply x h _ _ (by rw [Shape.rowMajor_val_three, Shape.rowMajor_val_two]; rfl)

/-- Splitting the leading axis back keeps the row-major position: the split array at (b, r, e) is the flat array at
    (4096 b + r, e). -/
theorem unflatten_apply {α : Type} (x : S32768x128.Idx → α) (h : S32768x128.ShapeCasts S8x4096x128)
    (b : Fin 8) (r : Fin 4096) (e : Fin 128) :
    shapeCast S8x4096x128 x h (ix3 b r e) = x (ix2 (flatRow b r) e) :=
  shapeCast_apply x h _ _ (by rw [Shape.rowMajor_val_three, Shape.rowMajor_val_two]; rfl)

/-! ## Before the first kernel -/

/-- The flattened input at (4096 b + r, k) is the input at (b, r, k). -/
theorem glue_x (W : Valuation τ sig (Elt F)) (b : Fin 8) (r : Fin 4096) (k : Fin 128) :
    (StableHlo.after hostOps0 W (Proc.devRef .tc main_v0) : S32768x128.Idx → F .f32) (ix2 (flatRow b r) k)
      = (W (Proc.devRef .tc main_arg0) : S8x4096x128.Idx → F .f32) (ix3 b r k) := by
  have hv : (StableHlo.after hostOps0 W (Proc.devRef .tc main_v0) : S32768x128.Idx → F .f32)
      = shapeCast S32768x128 (W (Proc.devRef .tc main_arg0) : S8x4096x128.Idx → F .f32) shapeCasts_S8x4096x128_S32768x128 := by
    dsimp only [hostOps0]; after_results; rfl
  rw [hv, flatten_apply]

/-- The first transposed weight matrix at (k, e) is the matrix at (e, k). -/
theorem glue_w1 (W : Valuation τ sig (Elt F)) (k e : Fin 128) :
    (StableHlo.after hostOps0 W (Proc.devRef .tc main_v1) : S128x128.Idx → F .f32) (ix2 k e)
      = (W (Proc.devRef .tc main_arg1) : S128x128.Idx → F .f32) (ix2 e k) := by
  have hv : (StableHlo.after hostOps0 W (Proc.devRef .tc main_v1) : S128x128.Idx → F .f32)
      = transpose S128x128 [1, 0] (W (Proc.devRef .tc main_arg1) : S128x128.Idx → F .f32) transposes_S128x128_S128x128_1_0 := by
    dsimp only [hostOps0]; after_results
  rw [hv]
  exact transpose_ix2_apply _ _ k e

/-- The second transposed weight matrix at (k, e) is the matrix at (e, k). -/
theorem glue_w2 (W : Valuation τ sig (Elt F)) (k e : Fin 128) :
    (StableHlo.after hostOps0 W (Proc.devRef .tc main_v2) : S128x128.Idx → F .f32) (ix2 k e)
      = (W (Proc.devRef .tc main_arg2) : S128x128.Idx → F .f32) (ix2 e k) := by
  have hv : (StableHlo.after hostOps0 W (Proc.devRef .tc main_v2) : S128x128.Idx → F .f32)
      = transpose S128x128 [1, 0] (W (Proc.devRef .tc main_arg2) : S128x128.Idx → F .f32) transposes_S128x128_S128x128_1_0 := by
    dsimp only [hostOps0]; after_results
  rw [hv]
  exact transpose_ix2_apply _ _ k e

/-- The third transposed weight matrix at (k, e) is the matrix at (e, k). -/
theorem glue_w3 (W : Valuation τ sig (Elt F)) (k e : Fin 128) :
    (StableHlo.after hostOps0 W (Proc.devRef .tc main_v3) : S128x128.Idx → F .f32) (ix2 k e)
      = (W (Proc.devRef .tc main_arg3) : S128x128.Idx → F .f32) (ix2 e k) := by
  have hv : (StableHlo.after hostOps0 W (Proc.devRef .tc main_v3) : S128x128.Idx → F .f32)
      = transpose S128x128 [1, 0] (W (Proc.devRef .tc main_arg3) : S128x128.Idx → F .f32) transposes_S128x128_S128x128_1_0 := by
    dsimp only [hostOps0]; after_results
  rw [hv]
  exact transpose_ix2_apply _ _ k e

/-! ## Between the kernels -/

/-- The query array at (b, r, e) is the first kernel's first result at (4096 b + r, e). -/
theorem glue_q (W : Valuation τ sig (Elt F)) (b : Fin 8) (r : Fin 4096) (e : Fin 128) :
    (StableHlo.after hostOps1 W (Proc.devRef .tc main_v5) : S8x4096x128.Idx → F .f32) (ix3 b r e)
      = (W (Proc.devRef .tc main_v4_0) : S32768x128.Idx → F .f32) (ix2 (flatRow b r) e) := by
  have hv : (StableHlo.after hostOps1 W (Proc.devRef .tc main_v5) : S8x4096x128.Idx → F .f32)
      = shapeCast S8x4096x128 (W (Proc.devRef .tc main_v4_0) : S32768x128.Idx → F .f32) shapeCasts_S32768x128_S8x4096x128 := by
    dsimp only [hostOps1]; after_results; rfl
  rw [hv, unflatten_apply]

/-- The key array at (b, r, e) is the first kernel's second result at (4096 b + r, e). -/
theorem glue_k (W : Valuation τ sig (Elt F)) (b : Fin 8) (r : Fin 4096) (e : Fin 128) :
    (StableHlo.after hostOps1 W (Proc.devRef .tc main_v6) : S8x4096x128.Idx → F .f32) (ix3 b r e)
      = (W (Proc.devRef .tc main_v4_1) : S32768x128.Idx → F .f32) (ix2 (flatRow b r) e) := by
  have hv : (StableHlo.after hostOps1 W (Proc.devRef .tc main_v6) : S8x4096x128.Idx → F .f32)
      = shapeCast S8x4096x128 (W (Proc.devRef .tc main_v4_1) : S32768x128.Idx → F .f32) shapeCasts_S32768x128_S8x4096x128 := by
    dsimp only [hostOps1]; after_results; rfl
  rw [hv, unflatten_apply]

/-- The value array (in the narrow format) at (b, r, e) is the first kernel's third result at (4096 b + r, e). -/
theorem glue_v (W : Valuation τ sig (Elt F)) (b : Fin 8) (r : Fin 4096) (e : Fin 128) :
    (StableHlo.after hostOps1 W (Proc.devRef .tc main_v7) : S8x4096x128.Idx → F .bf16) (ix3 b r e)
      = (W (Proc.devRef .tc main_v4_2) : S32768x128.Idx → F .bf16) (ix2 (flatRow b r) e) := by
  have hv : (StableHlo.after hostOps1 W (Proc.devRef .tc main_v7) : S8x4096x128.Idx → F .bf16)
      = shapeCast S8x4096x128 (W (Proc.devRef .tc main_v4_2) : S32768x128.Idx → F .bf16) shapeCasts_S32768x128_S8x4096x128 := by
    dsimp only [hostOps1]; after_results; rfl
  rw [hv, unflatten_apply]

end Cert.KernelIdeal.Hand

end
-- ==== Proof.KI.Value0.lean ====
import proofs.«120248_j30039001268548_2_alg».proof.Proof.KI.Region0
import proofs.«120248_j30039001268548_2_alg».proof.Proof.PayValue
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators
open Cert.KernelIdeal.PayValue (q_apply k_apply v_apply)

-- the TensorCore's buffer contents when the region is entered: a parameter
variable (V : (c : Dev nD) → (b : Ref sig .tc) → Buf (Elt Ideal) ((c : Thread nD τ).loc b))

/-! # Region 0's value: the three projections, index by index -/

theorem hz0 : (![0, 0] : Fin 2 → Nat) = fun _ => 0 := funext fun a => by fin_cases a <;> rfl

/-- Row `i 0` of the array `a` times column `i 1` of the weight `w`. -/
def proj (a : S32768x128.Idx → Elt Ideal .f32) (w : S128x128.Idx → Elt Ideal .f32) : S32768x128.Idx → Elt Ideal .f32 :=
  fun i => ∑ d : Fin 128, a (ix2 (i 0) d) * w (ix2 d (i 1))

/-- The printed index maps over the eight grid points: the input and the three outputs move down the rows with the
    point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of the arrays -/

/-- The input window's block at point `t` is rows `4096 t … 4096 t + 4095` of its array. -/
theorem iblk0_0_apply (c : Dev nD) (t : Fin cfg0.N) (y : S4096x128.Idx) (k : S32768x128.Idx)
    (hk0 : (k 0).val = t.val * 4096 + (y 0).val) (hk1 : (k 1).val = (y 1).val) :
    (iblk0 V c 0 t : Vec Ideal S4096x128 .f32) y = (V c main_v0 : S32768x128.Idx → Elt Ideal .f32) k := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 4096 + 1 * (y 0).val = (k 0).val; rw [e0, hk0]; omega
  | ⟨1, _⟩ => show win0_0.index t 1 * 128 + 1 * (y 1).val = (k 1).val; rw [e1, hk1]; omega

/-- Weight window 1's block at every point is its whole array. -/
theorem iblk0_1_eq (c : Dev nD) (t : Fin cfg0.N) :
    (iblk0 V c 1 t : Vec Ideal S128x128 .f32) = (V c main_v1 : S128x128.Idx → Elt Ideal .f32) := by
  obtain ⟨-, -, e0, e1, -⟩ := idx_facts0 t
  funext y
  unfold iblk0
  rw [View.read_apply]
  show V c main_v1 _ = V c main_v1 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- Weight window 2's block at every point is its whole array. -/
theorem iblk0_2_eq (c : Dev nD) (t : Fin cfg0.N) :
    (iblk0 V c 2 t : Vec Ideal S128x128 .f32) = (V c main_v2 : S128x128.Idx → Elt Ideal .f32) := by
  obtain ⟨-, -, -, -, e0, e1, -⟩ := idx_facts0 t
  funext y
  unfold iblk0
  rw [View.read_apply]
  show V c main_v2 _ = V c main_v2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Weight window 3's block at every point is its whole array. -/
theorem iblk0_3_eq (c : Dev nD) (t : Fin cfg0.N) :
    (iblk0 V c 3 t : Vec Ideal S128x128 .f32) = (V c main_v3 : S128x128.Idx → Elt Ideal .f32) := by
  obtain ⟨-, -, -, -, -, -, e0, e1, -⟩ := idx_facts0 t
  funext y
  unfold iblk0
  rw [View.read_apply]
  show V c main_v3 _ = V c main_v3 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-! ## The arrays the region reads, at their literal types -/

/-- The input rows, as the region finds them. -/
abbrev x2d (c : Dev nD) : S32768x128.Idx → Elt Ideal .f32 := V c main_v0
/-- The three weights, as the region finds them. -/
abbrev wq (c : Dev nD) : S128x128.Idx → Elt Ideal .f32 := V c main_v1
abbrev wk (c : Dev nD) : S128x128.Idx → Elt Ideal .f32 := V c main_v2
abbrev wv (c : Dev nD) : S128x128.Idx → Elt Ideal .f32 := V c main_v3

/-- The projection at an entry is the sum over the 128 features. -/
theorem proj_apply (a : S32768x128.Idx → Elt Ideal .f32) (w : S128x128.Idx → Elt Ideal .f32) (R : Fin 32768) (e : Fin 128) :
    proj a w (ix2 R e) = ∑ d : Fin 128, a (ix2 R d) * w (ix2 d e) := rfl

/-! ## The payloads where the blocks sit -/

/-- Where the input block is rows `4096 T …` of `a` and the weight block is `w`, the payload at a block index is the
    projection at the array index the block index sits at. -/
theorem pay2_at (x0 : Vec Ideal S4096x128 .f32) (x1 : Vec Ideal S128x128 .f32)
    (a : S32768x128.Idx → Elt Ideal .f32) (w : S128x128.Idx → Elt Ideal .f32) (T : Nat)
    (hx0 : ∀ (y : S4096x128.Idx) (k : S32768x128.Idx), (k 0).val = T * 4096 + (y 0).val → (k 1).val = (y 1).val → x0 y = a k)
    (hx1 : x1 = w)
    (j : S4096x128.Idx) (i : S32768x128.Idx) (hi0 : (i 0).val = T * 4096 + (j 0).val) (hi1 : (i 1).val = (j 1).val) :
    k0_pay2 x0 x1 j = proj a w i := by
  refine ((congrArg (k0_pay2 x0 x1) (eq_ix2 j)).trans (q_apply x0 x1 (j 0) (j 1))).trans ?_
  unfold proj
  subst hx1
  refine Finset.sum_congr rfl fun d _ => ?_
  have hj : (j 1 : Fin 128) = i 1 := Fin.ext hi1.symm
  rw [hx0 (ix2 (j 0) d) (ix2 (i 0) d) hi0 rfl, hj]

/-- Where the input block is rows `4096 T …` of `a` and the weight block is `w`, the payload at a block index is the
    projection at the array index the block index sits at. -/
theorem pay3_at (x0 : Vec Ideal S4096x128 .f32) (x1 : Vec Ideal S128x128 .f32)
    (a : S32768x128.Idx → Elt Ideal .f32) (w : S128x128.Idx → Elt Ideal .f32) (T : Nat)
    (hx0 : ∀ (y : S4096x128.Idx) (k : S32768x128.Idx), (k 0).val = T * 4096 + (y 0).val → (k 1).val = (y 1).val → x0 y = a k)
    (hx1 : x1 = w)
    (j : S4096x128.Idx) (i : S32768x128.Idx) (hi0 : (i 0).val = T * 4096 + (j 0).val) (hi1 : (i 1).val = (j 1).val) :
    k0_pay3 x0 x1 j = proj a w i := by
  refine ((congrArg (k0_pay3 x0 x1) (eq_ix2 j)).trans (k_apply x0 x1 (j 0) (j 1))).trans ?_
  unfold proj
  subst hx1
  refine Finset.sum_congr rfl fun d _ => ?_
  have hj : (j 1 : Fin 128) = i 1 := Fin.ext hi1.symm
  rw [hx0 (ix2 (j 0) d) (ix2 (i 0) d) hi0 rfl, hj]

/-- Where the input block is rows `4096 T …` of `a` and the weight block is `w`, the payload at a block index is the
    projection at the array index the block index sits at. -/
theorem pay4_at (x0 : Vec Ideal S4096x128 .f32) (x1 : Vec Ideal S128x128 .f32)
    (a : S32768x128.Idx → Elt Ideal .f32) (w : S128x128.Idx → Elt Ideal .f32) (T : Nat)
    (hx0 : ∀ (y : S4096x128.Idx) (k : S32768x128.Idx), (k 0).val = T * 4096 + (y 0).val → (k 1).val = (y 1).val → x0 y = a k)
    (hx1 : x1 = w)
    (j : S4096x128.Idx) (i : S32768x128.Idx) (hi0 : (i 0).val = T * 4096 + (j 0).val) (hi1 : (i 1).val = (j 1).val) :
    k0_pay4 x0 x1 j = proj a w i := by
  refine ((congrArg (k0_pay4 x0 x1) (eq_ix2 j)).trans (v_apply x0 x1 (j 0) (j 1))).trans ?_
  unfold proj
  subst hx1
  refine Finset.sum_congr rfl fun d _ => ?_
  have hj : (j 1 : Fin 128) = i 1 := Fin.ext hi1.symm
  rw [hx0 (ix2 (j 0) d) (ix2 (i 0) d) hi0 rfl, hj]

/-! ## Output window 4: Q -/

/-- What point `t` writes back of output window 4 is block `t` of the projection of the arrays as the region finds them. -/
theorem flushed4_eq (c : Dev nD) (t : Fin cfg0.N) :
    (dat0 V c).flushed 4 t = ((cfg0.win 4).blk t).view.read (Elt Ideal) (proj (V c main_v0) (V c main_v1)) := by
  show (cfg0.win 4).cut (grid0.coords t) ((dat0 V c).after 4 t) = _
  rw [after0_4]
  unfold out0_4
  rw [View.canon_unit_zero hz0]
  simp only [View.ld_unit_zero (S := S4096x128) hz0, View.ld_unit_zero (S := S128x128) hz0]
  funext j
  show k0_pay2 (iblk0 V c 0 t) (iblk0 V c 1 t) j = proj (V c main_v0) (V c main_v1) (((cfg0.win 4).blk t).view.emb j)
  obtain ⟨-, -, -, -, -, -, -, -, e0, e1, -⟩ := idx_facts0 t
  refine pay2_at (iblk0 V c 0 t) (iblk0 V c 1 t) (V c main_v0) (V c main_v1) t.val
    (fun y k h0 h1 => iblk0_0_apply V c t y k h0 h1) (iblk0_1_eq V c t) j _ ?_ ?_
  · show win0_4.index t 0 * 4096 + 1 * (j 0).val = t.val * 4096 + (j 0).val; rw [e0]; omega
  · show win0_4.index t 1 * 128 + 1 * (j 1).val = (j 1).val; rw [e1]; omega

/-- An index of the array is in point `t`'s block of output window 4 iff each coordinate is in the block's range on its axis. -/
theorem mem_blk4 (t : Fin cfg0.N) (i : S32768x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v4_0).slice (win0_4.rect t)).set ↔ _
  rw [View.set_slice_whole, Rect.mem_set_unit]
  exact Iff.rfl

/-- Every row of the array is in the block of the point `row / 4096`, which writes back. -/
theorem cover4 (i : S32768x128.Idx) : ∃ t : Fin cfg0.N, (cfg0.win 4).flush t = true ∧ i ∈ ((cfg0.win 4).blk t).view.set := by
  have hN : cfg0.N = 8 := N_0
  have hi0 : (i 0).val < 32768 := (i 0).isLt
  have hi1 : (i 1).val < 128 := (i 1).isLt
  refine ⟨⟨(i 0).val / 4096, by omega⟩, flush0_4 _, ?_⟩
  rw [mem_blk4]
  obtain ⟨-, -, -, -, -, -, -, -, e0, e1, -⟩ := idx_facts0 ⟨(i 0).val / 4096, by omega⟩
  intro a
  match a with
  | ⟨0, _⟩ => show win0_4.index _ (0 : Fin 2) * 4096 ≤ (i 0).val ∧ (i 0).val < win0_4.index _ (0 : Fin 2) * 4096 + 4096; rw [e0]; dsimp only; omega
  | ⟨1, _⟩ => show win0_4.index _ (1 : Fin 2) * 128 ≤ (i 1).val ∧ (i 1).val < win0_4.index _ (1 : Fin 2) * 128 + 128; rw [e1]; omega

/-- The array of output window 4 after the region: the projection of the arrays as the region finds them. -/
theorem arr4_eq (c : Dev nD) : (dat0 V c).arrAt 4 cfg0.N = proj (V c main_v0) (V c main_v1) :=
  (dat0 V c).arrAt_eq_of_cover 4 (proj (V c main_v0) (V c main_v1)) (fun t _ => flushed4_eq V c t) cover4

/-- Entry by entry: row `R` of the input against column `e` of the weight. -/
theorem final0_q (c : Dev nD) (R : Fin 32768) (e : Fin 128) :
    ((dat0 V c).arrAt 4 cfg0.N : S32768x128.Idx → Elt Ideal .f32) (ix2 R e)
      = ∑ d : Fin 128, x2d V c (ix2 R d) * wq V c (ix2 d e) := by
  rw [arr4_eq V c]
  rfl

/-! ## Output window 5: K -/

/-- What point `t` writes back of output window 5 is block `t` of the projection of the arrays as the region finds them. -/
theorem flushed5_eq (c : Dev nD) (t : Fin cfg0.N) :
    (dat0 V c).flushed 5 t = ((cfg0.win 5).blk t).view.read (Elt Ideal) (proj (V c main_v0) (V c main_v2)) := by
  show (cfg0.win 5).cut (grid0.coords t) ((dat0 V c).after 5 t) = _
  rw [after0_5]
  unfold out0_5
  rw [View.canon_unit_zero hz0]
  simp only [View.ld_unit_zero (S := S4096x128) hz0, View.ld_unit_zero (S := S128x128) hz0]
  funext j
  show k0_pay3 (iblk0 V c 0 t) (iblk0 V c 2 t) j = proj (V c main_v0) (V c main_v2) (((cfg0.win 5).blk t).view.emb j)
  obtain ⟨-, -, -, -, -, -, -, -, -, -, e0, e1, -⟩ := idx_facts0 t
  refine pay3_at (iblk0 V c 0 t) (iblk0 V c 2 t) (V c main_v0) (V c main_v2) t.val
    (fun y k h0 h1 => iblk0_0_apply V c t y k h0 h1) (iblk0_2_eq V c t) j _ ?_ ?_
  · show win0_5.index t 0 * 4096 + 1 * (j 0).val = t.val * 4096 + (j 0).val; rw [e0]; omega
  · show win0_5.index t 1 * 128 + 1 * (j 1).val = (j 1).val; rw [e1]; omega

/-- An index of the array is in point `t`'s block of output window 5 iff each coordinate is in the block's range on its axis. -/
theorem mem_blk5 (t : Fin cfg0.N) (i : S32768x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v4_1).slice (win0_5.rect t)).set ↔ _
  rw [View.set_slice_whole, Rect.mem_set_unit]
  exact Iff.rfl

/-- Every row of the array is in the block of the point `row / 4096`, which writes back. -/
theorem cover5 (i : S32768x128.Idx) : ∃ t : Fin cfg0.N, (cfg0.win 5).flush t = true ∧ i ∈ ((cfg0.win 5).blk t).view.set := by
  have hN : cfg0.N = 8 := N_0
  have hi0 : (i 0).val < 32768 := (i 0).isLt
  have hi1 : (i 1).val < 128 := (i 1).isLt
  refine ⟨⟨(i 0).val / 4096, by omega⟩, flush0_5 _, ?_⟩
  rw [mem_blk5]
  obtain ⟨-, -, -, -, -, -, -, -, -, -, e0, e1, -⟩ := idx_facts0 ⟨(i 0).val / 4096, by omega⟩
  intro a
  match a with
  | ⟨0, _⟩ => show win0_5.index _ (0 : Fin 2) * 4096 ≤ (i 0).val ∧ (i 0).val < win0_5.index _ (0 : Fin 2) * 4096 + 4096; rw [e0]; dsimp only; omega
  | ⟨1, _⟩ => show win0_5.index _ (1 : Fin 2) * 128 ≤ (i 1).val ∧ (i 1).val < win0_5.index _ (1 : Fin 2) * 128 + 128; rw [e1]; omega

/-- The array of output window 5 after the region: the projection of the arrays as the region finds them. -/
theorem arr5_eq (c : Dev nD) : (dat0 V c).arrAt 5 cfg0.N = proj (V c main_v0) (V c main_v2) :=
  (dat0 V c).arrAt_eq_of_cover 5 (proj (V c main_v0) (V c main_v2)) (fun t _ => flushed5_eq V c t) cover5

/-- Entry by entry: row `R` of the input against column `e` of the weight. -/
theorem final0_k (c : Dev nD) (R : Fin 32768) (e : Fin 128) :
    ((dat0 V c).arrAt 5 cfg0.N : S32768x128.Idx → Elt Ideal .f32) (ix2 R e)
      = ∑ d : Fin 128, x2d V c (ix2 R d) * wk V c (ix2 d e) := by
  rw [arr5_eq V c]
  rfl

/-! ## Output window 6: V -/

/-- What point `t` writes back of output window 6 is block `t` of the projection of the arrays as the region finds them. -/
theorem flushed6_eq (c : Dev nD) (t : Fin cfg0.N) :
    (dat0 V c).flushed 6 t = ((cfg0.win 6).blk t).view.read (Elt Ideal) (proj (V c main_v0) (V c main_v3)) := by
  show (cfg0.win 6).cut (grid0.coords t) ((dat0 V c).after 6 t) = _
  rw [after0_6]
  unfold out0_6
  rw [View.canon_unit_zero hz0]
  simp only [View.ld_unit_zero (S := S4096x128) hz0, View.ld_unit_zero (S := S128x128) hz0]
  funext j
  show k0_pay4 (iblk0 V c 0 t) (iblk0 V c 3 t) j = proj (V c main_v0) (V c main_v3) (((cfg0.win 6).blk t).view.emb j)
  obtain ⟨-, -, -, -, -, -, -, -, -, -, -, -, e0, e1⟩ := idx_facts0 t
  refine pay4_at (iblk0 V c 0 t) (iblk0 V c 3 t) (V c main_v0) (V c main_v3) t.val
    (fun y k h0 h1 => iblk0_0_apply V c t y k h0 h1) (iblk0_3_eq V c t) j _ ?_ ?_
  · show win0_6.index t 0 * 4096 + 1 * (j 0).val = t.val * 4096 + (j 0).val; rw [e0]; omega
  · show win0_6.index t 1 * 128 + 1 * (j 1).val = (j 1).val; rw [e1]; omega

/-- An index of the array is in point `t`'s block of output window 6 iff each coordinate is in the block's range on its axis. -/
theorem mem_blk6 (t : Fin cfg0.N) (i : S32768x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v4_2).slice (win0_6.rect t)).set ↔ _
  rw [View.set_slice_whole, Rect.mem_set_unit]
  exact Iff.rfl

/-- Every row of the array is in the block of the point `row / 4096`, which writes back. -/
theorem cover6 (i : S32768x128.Idx) : ∃ t : Fin cfg0.N, (cfg0.win 6).flush t = true ∧ i ∈ ((cfg0.win 6).blk t).view.set := by
  have hN : cfg0.N = 8 := N_0
  have hi0 : (i 0).val < 32768 := (i 0).isLt
  have hi1 : (i 1).val < 128 := (i 1).isLt
  refine ⟨⟨(i 0).val / 4096, by omega⟩, flush0_6 _, ?_⟩
  rw [mem_blk6]
  obtain ⟨-, -, -, -, -, -, -, -, -, -, -, -, e0, e1⟩ := idx_facts0 ⟨(i 0).val / 4096, by omega⟩
  intro a
  match a with
  | ⟨0, _⟩ => show win0_6.index _ (0 : Fin 2) * 4096 ≤ (i 0).val ∧ (i 0).val < win0_6.index _ (0 : Fin 2) * 4096 + 4096; rw [e0]; dsimp only; omega
  | ⟨1, _⟩ => show win0_6.index _ (1 : Fin 2) * 128 ≤ (i 1).val ∧ (i 1).val < win0_6.index _ (1 : Fin 2) * 128 + 128; rw [e1]; omega

/-- The array of output window 6 after the region: the projection of the arrays as the region finds them. -/
theorem arr6_eq (c : Dev nD) : (dat0 V c).arrAt 6 cfg0.N = proj (V c main_v0) (V c main_v3) :=
  (dat0 V c).arrAt_eq_of_cover 6 (proj (V c main_v0) (V c main_v3)) (fun t _ => flushed6_eq V c t) cover6

/-- Entry by entry: row `R` of the input against column `e` of the weight. -/
theorem final0_v (c : Dev nD) (R : Fin 32768) (e : Fin 128) :
    ((dat0 V c).arrAt 6 cfg0.N : S32768x128.Idx → Elt Ideal .bf16) (ix2 R e)
      = ∑ d : Fin 128, x2d V c (ix2 R d) * wv V c (ix2 d e) := by
  rw [arr6_eq V c]
  rfl

end Cert.KernelIdeal.Hand

end
-- ==== Proof.KI.Bridge.lean ====
/-
  The attention region's inputs, traced back to the program's arguments (on the extended reals).

  The region is entered with three arrays of shape [8, 4096, 128]. Each is a reshape of a [32768, 128] result of the
  projection region, row r of batch b being flat row 4096 b + r; that result at (R, e) is the sum over the 128 input
  features d of (flattened input at (R, d)) · (transposed weight at (d, e)); the flattened input at (4096 b + r, d) is
  the input at (b, r, d) and the transposed weight at (d, e) is the weight at (e, d). So each of the three arrays is
  the projection x · wᵀ of the input by its weight matrix, and the score rows and value columns the region works on
  are those of the plain description of attention.
-/
import proofs.«120248_j30039001268548_2_alg».proof.Proof.KI.Run
import proofs.«120248_j30039001268548_2_alg».proof.Proof.KI.HostGlue
import proofs.«120248_j30039001268548_2_alg».proof.Proof.KI.Step1
import proofs.«120248_j30039001268548_2_alg».proof.Proof.KI.Value0
import proofs.«120248_j30039001268548_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Attn Cert.ReferenceIdeal.RefValue

/-! ## The projection region's operands and results as plain functions of their coordinates -/

section Entry
variable (V : (c : Dev nD) → (b : Ref sig .tc) → Buf (Elt Ideal) ((c : Thread nD τ).loc b))

/-- The flattened input the projection region is entered with, at (R, d). -/
def Xflat (c : Dev nD) (R : Fin 32768) (d : Fin 128) : EReal := V c main_v0 (ix2 R d)
/-- The three transposed weight matrices it is entered with, at (d, e). -/
def Wt1 (c : Dev nD) (d e : Fin 128) : EReal := V c main_v1 (ix2 d e)
def Wt2 (c : Dev nD) (d e : Fin 128) : EReal := V c main_v2 (ix2 d e)
def Wt3 (c : Dev nD) (d e : Fin 128) : EReal := V c main_v3 (ix2 d e)
/-- Its three result arrays after its last point, at (R, e). -/
def Pq (c : Dev nD) (R : Fin 32768) (e : Fin 128) : EReal := (dat0 V c).arrAt 4 cfg0.N (ix2 R e)
def Pk (c : Dev nD) (R : Fin 32768) (e : Fin 128) : EReal := (dat0 V c).arrAt 5 cfg0.N (ix2 R e)
def Pv (c : Dev nD) (R : Fin 32768) (e : Fin 128) : EReal := (dat0 V c).arrAt 6 cfg0.N (ix2 R e)

/-- Each result is the product of the flattened input and a transposed weight matrix. -/
theorem Pq_eq (c : Dev nD) (R : Fin 32768) (e : Fin 128) : Pq V c R e = ∑ d : Fin 128, Xflat V c R d * Wt1 V c d e :=
  final0_q V c R e
theorem Pk_eq (c : Dev nD) (R : Fin 32768) (e : Fin 128) : Pk V c R e = ∑ d : Fin 128, Xflat V c R d * Wt2 V c d e :=
  final0_k V c R e
theorem Pv_eq (c : Dev nD) (R : Fin 32768) (e : Fin 128) : Pv V c R e = ∑ d : Fin 128, Xflat V c R d * Wt3 V c d e :=
  final0_v V c R e

end Entry

variable (m : (ℓ : Loc nD τ sig) → Buf (Elt Ideal) ℓ) (ρ : Dev nD → PrngReg)

/-! ## Before the projection region: the reshape and the transposes -/

/-- The flattened input at (4096 b + r, d) is the argument at (b, r, d). -/
theorem Xflat_eq (c : Dev nD) (b : Fin 8) (r : Fin 4096) (d : Fin 128) :
    Xflat (E1 m ρ) c (flatRow b r) d = X (m ((c.tc : Thread nD τ).loc main_arg0)) b r d :=
  glue_x (B0 m ρ c) b r d

/-- A transposed weight matrix at (d, e) is the argument at (e, d). -/
theorem Wt1_eq (c : Dev nD) (d e : Fin 128) : Wt1 (E1 m ρ) c d e = Wm (m ((c.tc : Thread nD τ).loc main_arg1)) e d :=
  glue_w1 (B0 m ρ c) d e
theorem Wt2_eq (c : Dev nD) (d e : Fin 128) : Wt2 (E1 m ρ) c d e = Wm (m ((c.tc : Thread nD τ).loc main_arg2)) e d :=
  glue_w2 (B0 m ρ c) d e
theorem Wt3_eq (c : Dev nD) (d e : Fin 128) : Wt3 (E1 m ρ) c d e = Wm (m ((c.tc : Thread nD τ).loc main_arg3)) e d :=
  glue_w3 (B0 m ρ c) d e

/-! ## After the projection region: its result arrays, then the reshapes -/

theorem B2_q (c : Dev nD) : B2 m ρ c (Proc.devRef .tc main_v4_0) = (dat0 (E1 m ρ) c).arrAt 4 cfg0.N := B2_arr m ρ c 4
theorem B2_k (c : Dev nD) : B2 m ρ c (Proc.devRef .tc main_v4_1) = (dat0 (E1 m ρ) c).arrAt 5 cfg0.N := B2_arr m ρ c 5
theorem B2_v (c : Dev nD) : B2 m ρ c (Proc.devRef .tc main_v4_2) = (dat0 (E1 m ρ) c).arrAt 6 cfg0.N := B2_arr m ρ c 6

/-- The query array the attention region is entered with, at (b, r, e), is the projection region's first result at
    (4096 b + r, e); likewise keys and values. -/
theorem Qa_flat (c : Dev nD) (b : Fin 8) (r : Fin 4096) (e : Fin 128) :
    Qa (E3 m ρ) c b r e = Pq (E1 m ρ) c (flatRow b r) e := by
  unfold Qa Pq
  refine (glue_q (B2 m ρ c) b r e).trans ?_
  exact congrArg (fun f : S32768x128.Idx → EReal => f (ix2 (flatRow b r) e)) (B2_q m ρ c)
theorem Ka_flat (c : Dev nD) (b : Fin 8) (r : Fin 4096) (e : Fin 128) :
    Ka (E3 m ρ) c b r e = Pk (E1 m ρ) c (flatRow b r) e := by
  unfold Ka Pk
  refine (glue_k (B2 m ρ c) b r e).trans ?_
  exact congrArg (fun f : S32768x128.Idx → EReal => f (ix2 (flatRow b r) e)) (B2_k m ρ c)
theorem Va_flat (c : Dev nD) (b : Fin 8) (r : Fin 4096) (e : Fin 128) :
    Va (E3 m ρ) c b r e = Pv (E1 m ρ) c (flatRow b r) e := by
  unfold Va Pv
  refine (glue_v (B2 m ρ c) b r e).trans ?_
  exact congrArg (fun f : S32768x128.Idx → EReal => f (ix2 (flatRow b r) e)) (B2_v m ρ c)

/-! ## The three arrays are the three projections -/

/-- The query array is the projection of the input by the first weight matrix. -/
theorem Qa_eq (c : Dev nD) (b : Fin 8) (r : Fin 4096) (e : Fin 128) :
    Qa (E3 m ρ) c b r e
      = Cert.Attn.proj (X (m ((c.tc : Thread nD τ).loc main_arg0))) (Wm (m ((c.tc : Thread nD τ).loc main_arg1))) b r e := by
  refine (Qa_flat m ρ c b r e).trans ((Pq_eq (E1 m ρ) c (flatRow b r) e).trans ?_)
  unfold Cert.Attn.proj
  exact Finset.sum_congr rfl fun d _ => congrArg₂ (· * ·) (Xflat_eq m ρ c b r d) (Wt1_eq m ρ c d e)

/-- The key array is the projection of the input by the second weight matrix. -/
theorem Ka_eq (c : Dev nD) (b : Fin 8) (r : Fin 4096) (e : Fin 128) :
    Ka (E3 m ρ) c b r e
      = Cert.Attn.proj (X (m ((c.tc : Thread nD τ).loc main_arg0))) (Wm (m ((c.tc : Thread nD τ).loc main_arg2))) b r e := by
  refine (Ka_flat m ρ c b r e).trans ((Pk_eq (E1 m ρ) c (flatRow b r) e).trans ?_)
  unfold Cert.Attn.proj
  exact Finset.sum_congr rfl fun d _ => congrArg₂ (· * ·) (Xflat_eq m ρ c b r d) (Wt2_eq m ρ c d e)

/-- The value array is the projection of the input by the third weight matrix. -/
theorem Va_eq (c : Dev nD) (b : Fin 8) (r : Fin 4096) (e : Fin 128) :
    Va (E3 m ρ) c b r e
      = Cert.Attn.proj (X (m ((c.tc : Thread nD τ).loc main_arg0))) (Wm (m ((c.tc : Thread nD τ).loc main_arg3))) b r e := by
  refine (Va_flat m ρ c b r e).trans ((Pv_eq (E1 m ρ) c (flatRow b r) e).trans ?_)
  unfold Cert.Attn.proj
  exact Finset.sum_congr rfl fun d _ => congrArg₂ (· * ·) (Xflat_eq m ρ c b r d) (Wt3_eq m ρ c d e)

/-- The score row of query row R of batch b is that of the plain description. -/
theorem Srow_eq (c : Dev nD) (b : Fin 8) (R : Fin 4096) :
    Srow (E3 m ρ) c b R
      = fun j => score (Cert.Attn.proj (X (m ((c.tc : Thread nD τ).loc main_arg0))) (Wm (m ((c.tc : Thread nD τ).loc main_arg1))) b)
          (Cert.Attn.proj (X (m ((c.tc : Thread nD τ).loc main_arg0))) (Wm (m ((c.tc : Thread nD τ).loc main_arg2))) b) R j := by
  funext j
  unfold Srow
  rw [show Qa (E3 m ρ) c b
        = Cert.Attn.proj (X (m ((c.tc : Thread nD τ).loc main_arg0))) (Wm (m ((c.tc : Thread nD τ).loc main_arg1))) b
      from funext fun r => funext fun e => Qa_eq m ρ c b r e,
    show Ka (E3 m ρ) c b
        = Cert.Attn.proj (X (m ((c.tc : Thread nD τ).loc main_arg0))) (Wm (m ((c.tc : Thread nD τ).loc main_arg2))) b
      from funext fun r => funext fun e => Ka_eq m ρ c b r e]

/-- Column e of the values of batch b is that of the plain description. -/
theorem Vcol_eq (c : Dev nD) (b : Fin 8) (e : Fin 128) :
    Vcol (E3 m ρ) c b e
      = fun j => Cert.Attn.proj (X (m ((c.tc : Thread nD τ).loc main_arg0))) (Wm (m ((c.tc : Thread nD τ).loc main_arg3))) b j e := by
  funext j
  unfold Vcol
  exact Va_eq m ρ c b j e

end Cert.KernelIdeal.Hand

end
-- ==== Proof.KI.Final.lean ====
/-
  The attention program's result on the extended reals, entry by entry, is the reference's.

  The result array is what the attention region's output array holds after its last grid point; that array is, entry
  (b, R, e), the blockwise arrangement of the softmax on the scores of query row R of batch b and column e of the
  values; those scores and values are the ones formed from the projections of the program's arguments; on real
  inputs the blockwise arrangement equals the plain one; and the plain one is what the reference computes.
-/
import proofs.«120248_j30039001268548_2_alg».proof.Proof.KI.Run
import proofs.«120248_j30039001268548_2_alg».proof.Proof.KI.Step1
import proofs.«120248_j30039001268548_2_alg».proof.Proof.Finite
import proofs.«120248_j30039001268548_2_alg».proof.Proof.RefValue
import proofs.«120248_j30039001268548_2_alg».proof.Proof.KI.Value1
import proofs.«120248_j30039001268548_2_alg».proof.Proof.KI.Bridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Attn Cert.ReferenceIdeal.RefValue

variable (m : (ℓ : Loc nD τ sig) → Buf (Elt Ideal) ℓ) (ρ : Dev nD → PrngReg)

/-- THE KERNEL'S RESULT AT AN INDEX: for finite inputs, entry `i` of the result array is entry `i` of the reference's
    result term of the same four arguments. -/
theorem kernel_value [Cert.Pre_finite_inputs.Facts] (hpre : Cert.Pre_KernelIdeal m) (c : Dev nD) (i : S8x4096x128.Idx) :
    (B4 m ρ c (Proc.devRef .tc main_v8) : S8x4096x128.Idx → EReal) i
      = Cert.ReferenceIdeal.Read.val_main_v15 (F := Ideal) (m ((c.tc : Thread nD τ).loc main_arg0))
          (m ((c.tc : Thread nD τ).loc main_arg1)) (m ((c.tc : Thread nD τ).loc main_arg2))
          (m ((c.tc : Thread nD τ).loc main_arg3)) i := by
  obtain ⟨b, R, e, rfl⟩ : ∃ (b : Fin 8) (R : Fin 4096) (e : Fin 128), i = ix3 b R e := ⟨i 0, i 1, i 2, eq_ix3 i⟩
  obtain ⟨h0, h1, h2, h3⟩ := Cert.KernelIdeal.Fin.finite_of_pre m hpre c
  have hres : (B4 m ρ c (Proc.devRef .tc main_v8) : S8x4096x128.Idx → EReal) = Gout (E3 m ρ) c :=
    (result_eq m ρ c).trans (final1 (E3 m ρ) c)
  refine (congrFun hres (ix3 b R e)).trans ?_
  refine (Gout_ix3 (E3 m ρ) c b R e).trans ?_
  refine (congrArg₂ flashOut (Srow_eq m ρ c b R) (Vcol_eq m ρ c b e)).trans ?_
  refine (attn_eq (x := X (m ((c.tc : Thread nD τ).loc main_arg0))) (wq := Wm (m ((c.tc : Thread nD τ).loc main_arg1)))
    (wk := Wm (m ((c.tc : Thread nD τ).loc main_arg2))) (wv := Wm (m ((c.tc : Thread nD τ).loc main_arg3)))
    (fun b r d => h0 (ix3 b r d)) (fun e d => h1 (ix2 e d)) (fun e d => h2 (ix2 e d)) (fun e d => h3 (ix2 e d)) b R e).trans ?_
  exact (ref_apply (m ((c.tc : Thread nD τ).loc main_arg0)) (m ((c.tc : Thread nD τ).loc main_arg1))
    (m ((c.tc : Thread nD τ).loc main_arg2)) (m ((c.tc : Thread nD τ).loc main_arg3)) b R e).symm

end Cert.KernelIdeal.Hand

end
-- ==== Proof.K.Region0.lean ====
import proofs.«120248_j30039001268548_2_alg».proof.Proof.Gen.Kernel.Launch
import proofs.«120248_j30039001268548_2_alg».proof.Proof.Gen.Kernel.Skeleton
import proofs.«120248_j30039001268548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: the projection kernel, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved;
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved;
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved;
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved;
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4096x128 := Rect.unit (s := S4096x128) ![0, 0] S4096x128.size inb_S4096x128_S4096x128_0_0
abbrev r0_w : Rect S128x128 := Rect.unit (s := S128x128) ![0, 0] S128x128.size inb_S128x128_S128x128_0_0

/-! ## What the body leaves in each output window's buffer -/

/-- The Q block's staging buffer after the body: its one store, of the product of the input block and the first weight. -/
def out0_4 (x0 : Vec F S4096x128 .f32) (x1 : Vec F S128x128 .f32) : Vec F S4096x128 .f32 :=
  View.canon [⟨r0_x, k0_pay2 (View.ld x0 r0_x) (View.ld x1 r0_w)⟩]
/-- The K block's staging buffer after the body: its one store, of the product with the second weight. -/
def out0_5 (x0 : Vec F S4096x128 .f32) (x2 : Vec F S128x128 .f32) : Vec F S4096x128 .f32 :=
  View.canon [⟨r0_x, k0_pay3 (View.ld x0 r0_x) (View.ld x2 r0_w)⟩]
/-- The V block's staging buffer after the body: its one store, of the rounded product with the third weight. -/
def out0_6 (x0 : Vec F S4096x128 .f32) (x3 : Vec F S128x128 .f32) : Vec F S4096x128 .bf16 :=
  View.canon [⟨r0_x, k0_pay4 (View.ld x0 r0_x) (View.ld x3 r0_w)⟩]

/-- One store through the whole-buffer rectangle tiles the buffer, so it covers it (either element type). -/
theorem cover0_x {e : EltTy} (p0 : r0_x.shape.Idx → Elt F e) (y : S4096x128.Idx) :
    ∃ pc ∈ ([⟨r0_x, p0⟩] : List (View.Piece (Elt F) S4096x128 e)), y ∈ pc.1.set :=
  View.cover_of_tiled [⟨r0_x, p0⟩] S4096x128.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, whose loads and stores are run one by one. The loads of the outputs' buffers before each store
    read whatever is there and their values are not used. -/
theorem sound_kernel0 (c : Dev nD) (E : Set ℕ) (i : grid0.Coords)
    (arg1 : Memref sig .tc .vmem S4096x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S4096x128 .f32) (harg5 : arg5.IsWhole) (arg6 : Memref sig .tc .vmem S4096x128 .f32) (harg6 : arg6.IsWhole)
    (arg7 : Memref sig .tc .vmem S4096x128 .bf16) (harg7 : arg7.IsWhole)
    (x0 : Vec F S4096x128 .f32) (x1 x2 x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_x _)
  isplitl [H5]
  · iexists _; isplitr
    swap; · iexact H5
    ipureintro
    exact View.read_writes_eq_canon _ _ _ (cover0_x _)
  iexists _; isplitr
  swap; · iexact H6
  ipureintro
  exact View.read_writes_eq_canon _ _ _ (cover0_x _)

/-! ## The pipeline's proof data -/

/-- The proof data of the projection pipeline on core `c`: the arrays as the region finds them (`V`); after the body at
    point `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Runs1.lean ====
import proofs.«120248_j30039001268548_2_alg».proof.Proof.Gen.Kernel.Launch
import proofs.«120248_j30039001268548_2_alg».proof.Proof.Gen.Kernel.Skeleton
import proofs.«120248_j30039001268548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The second kernel launch (the running-softmax attention body), at the entry contents `V`

What the three whole-body runs share: the windows' blocks, the two conditions of the body decided over the
128 grid points, where the output window is idle, the names of the staging and scratch memrefs, and the
region invariant with the three carried buffers (running maximum, running denominator, running numerator)
owned at some contents. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block)'s current staging buffer holds its block at every point, fetched there or not
    (unfetched, the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the key block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the value block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the three carried buffers), from the grid
    coordinates: the innermost coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the normalised store into the output block): the innermost
    coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (reset taken, store not taken) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither taken) output 3 is idle. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (reset not taken, store taken) output 3 is live: the case stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of output window 3, through which its contents are stated (the choice does not matter). -/
abbrev VO1_3 : View sig .tc .vmem S1x1024x128 .f32 := (Memref.whole cc1_stg3_0 : Memref sig .tc .vmem S1x1024x128 .f32).view
/-- Each window's current staging memref at point `t`, spelled as the pipeline passes it, and its wholeness. -/
abbrev ms1_0 (t : Fin cfg1.N) : Memref sig .tc .vmem S1x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three carried buffers: whole scoped buffers of the kernel's own, passed beside the windows — the running
    row maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The same as views: what they hold is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The region invariant -/

/-- Separating conjunction associates, as an equation of propositions. -/
theorem sep_assoc_eq (P Q R : sProp 𝕄) : iprop((P ∗ Q) ∗ R) = iprop(P ∗ Q ∗ R) :=
  BI.Entails.antisymm
    (show iprop((P ∗ Q) ∗ R) ⊢ iprop(P ∗ Q ∗ R) from by
      iintro ⟨⟨HP, HQ⟩, HR⟩; isplitl [HP]; · iexact HP
      isplitl [HQ]; · iexact HQ
      iexact HR)
    (show iprop(P ∗ Q ∗ R) ⊢ iprop((P ∗ Q) ∗ R) from by
      iintro ⟨HP, HQ, HR⟩; isplitr [HR]
      · isplitl [HP]; · iexact HP
        iexact HQ
      iexact HR)

/-- The core's scoped buffers that are neither a staging buffer of this kernel launch nor one of its three carried
    buffers — the first kernel launch's staging buffers —, each whole at some contents: the body never touches them. -/
def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant with the three carried buffers as memrefs owned at some contents, beside the untouched
    rest: what the body obligation hands the run and takes back. -/
theorem PhiA1_eq (c : Dev nD) :
    (Pipeline.ΦA spec1 c : sProp 𝕄)
      = iprop(iprop(restStg1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA restStg1; rw [scopedRest1_eq]; simp only [scM1_0, scM1_1, scM1_2, owns_whole, sep_assoc_eq]; try rfl

end Cert.Kernel.Hand

end
-- ==== Proof.K.Run1A.lean ====
import proofs.«120248_j30039001268548_2_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the three carried buffers, as pieces (last first), IN CASE A (the reset taken, the
    output store not taken: the points ≡ 0 mod 4), WITH the proof that on whole memrefs — the three inputs' at their
    contents, the output's at contents `xi3` handed back untouched, the carried buffers' at anything (the reset
    overwrites them before they are read) — the body runs to the continuation holding the inputs' and the output's as they
    were and each carried buffer with its pieces written. The pieces are the witness. -/
noncomputable def kernelRun1_A (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1B.lean ====
import proofs.«120248_j30039001268548_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The same IN CASE B (neither conditional taken: the points ≡ 1, 2 mod 4): the carried buffers enter at the contents
    `xs0`, `xs1`, `xs2` the point before left (running maximum, denominator, numerator); the output is handed back
    untouched. -/
noncomputable def kernelRun1_B (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1C.lean ====
import proofs.«120248_j30039001268548_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The same IN CASE C (the reset not taken, the output store taken: the points ≡ 3 mod 4): the carried buffers enter at
    what the point before left; the output's buffer enters at anything and ends with its pieces (`L3`) written. -/
noncomputable def kernelRun1_C (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) :
    Σ' (L3 : List (View.Piece (Elt F) S1x1024x128 .f32)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Region1.lean ====
import proofs.«120248_j30039001268548_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The second kernel launch's half of the frame

Per case of the body's two conditionals, what the output block and the three carried buffers (running maximum, running
denominator, running numerator of the streaming softmax) hold after the body — the pieces each case's run found,
read back —; then the same point by point (`outsAt1`), the region invariant carrying the three buffers between points
(`PhiS1`), the pipeline's proof data (`dat1`) and the body obligation. -/

/-- In case A (reset taken, store not taken) nothing is stored into output 3 (the window is idle at its points and not written back there):
    no pieces — a placeholder (junk read back) that nothing consults. -/
def out1_A_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1x1024x128 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- In case A (reset taken, store not taken) the pieces stored into carried buffer 0 (the running row maximum) tile it, so they cover it. -/
theorem scover1_A_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A (reset taken, store not taken) leaves in carried buffer 0 (the running row maximum): its pieces read back over junk. -/
def sout1_A_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- In case A (reset taken, store not taken) the pieces stored into carried buffer 1 (the running denominator) tile it, so they cover it. -/
theorem scover1_A_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A (reset taken, store not taken) leaves in carried buffer 1 (the running denominator): its pieces read back over junk. -/
def sout1_A_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- In case A (reset taken, store not taken) the pieces stored into carried buffer 2 (the running numerator) tile it, so they cover it. -/
theorem scover1_A_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) (y : S1024x128.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x128.size (by sl_kernel_rfl) y

/-- What case A (reset taken, store not taken) leaves in carried buffer 2 (the running numerator): its pieces read back over junk. -/
def sout1_A_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1x1024x128 .f32) (x1 : Vec F S1x1024x128 .f32) (x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- In case B (neither conditional taken) nothing is stored into output 3 (the window is idle at its points and not written back there):
    no pieces — a placeholder (junk read back) that nothing consults. -/
def out1_B_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- In case B (neither conditional taken) the pieces stored into carried buffer 0 (the running row maximum) tile it, so they cover it. -/
theorem scover1_B_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B (neither conditional taken) leaves in carried buffer 0 (the running row maximum): its pieces read back over junk. -/
def sout1_B_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- In case B (neither conditional taken) the pieces stored into carried buffer 1 (the running denominator) tile it, so they cover it. -/
theorem scover1_B_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B (neither conditional taken) leaves in carried buffer 1 (the running denominator): its pieces read back over junk. -/
def sout1_B_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- In case B (neither conditional taken) the pieces stored into carried buffer 2 (the running numerator) tile it, so they cover it. -/
theorem scover1_B_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x128.size (by sl_kernel_rfl) y

/-- What case B (neither conditional taken) leaves in carried buffer 2 (the running numerator): its pieces read back over junk. -/
def sout1_B_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- In case C (reset not taken, store taken) the pieces stored into output 3 tile its block, so they cover it. -/
theorem cover1_C_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1x1024x128.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x128.size (by sl_kernel_rfl) y

/-- What case C (reset not taken, store taken) leaves in output 3's staging buffer: its pieces read back over junk. -/
def out1_C_3 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- In case C (reset not taken, store taken) the pieces stored into carried buffer 0 (the running row maximum) tile it, so they cover it. -/
theorem scover1_C_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C (reset not taken, store taken) leaves in carried buffer 0 (the running row maximum): its pieces read back over junk. -/
def sout1_C_0 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- In case C (reset not taken, store taken) the pieces stored into carried buffer 1 (the running denominator) tile it, so they cover it. -/
theorem scover1_C_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C (reset not taken, store taken) leaves in carried buffer 1 (the running denominator): its pieces read back over junk. -/
def sout1_C_1 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- In case C (reset not taken, store taken) the pieces stored into carried buffer 2 (the running numerator) tile it, so they cover it. -/
theorem scover1_C_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) (y : S1024x128.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x128.size (by sl_kernel_rfl) y

/-- What case C (reset not taken, store taken) leaves in carried buffer 2 (the running numerator): its pieces read back over junk. -/
def sout1_C_2 (c : Dev nD) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1x1024x128 .f32) (x1 : Vec F S1x1024x128 .f32) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output and the carried buffers hold after each point -/

/-- THE ACCUMULATION. What output 3's staging buffer and the three carried buffers (running maximum, running
    denominator, running numerator) hold after the body at position `n`: the case the closed forms select at `n`, run
    at the point's memrefs and input blocks, the carried buffers entering at what this leaves at `n - 1`. An assignment of
    the conditions no point meets is no case. -/
def outsAt1 (c : Dev nD) : (n : ℕ) → n < cfg1.N → Vec F S1x1024x128 .f32 × Vec F S1024x1 .f32 × Vec F S1024x1 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
      sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
      sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is no staging
    buffer of this kernel launch at anything); afterwards the untouched rest with each carried buffer at what the point before
    left in it (`outsAt1`'s last three components), and the generator register at some state. -/
def PhiS1 (c : Dev nD) : (n : ℕ) → n ≤ cfg1.N → sProp 𝕄
  | 0, _ => Pipeline.ΦA spec1 c
  | n + 1, hn => iprop(iprop(restStg1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(restStg1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(restStg1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this kernel launch on core `c`: the arrays as the region finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; so that
    case's run applies; the invariant hands the body the carried buffers at what the point before left (at anything at the
    first point) and takes them back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          swap; · iexact Hg
          isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
import proofs.«120248_j30039001268548_2_alg».proof.Proof.K.Region0
import proofs.«120248_j30039001268548_2_alg».proof.Proof.K.Region1
import proofs.«120248_j30039001268548_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the four items of the program

The program is: four host operations (a reshape of the input and the three weight transposes), the projection
region, three host reshapes, the attention region. The contents of every unscoped buffer are followed through
them as a fold from the launch memory. -/

/-- At launch. -/
abbrev B0 : Dev nD → Valuation τ sig (Elt F) := fun c b => (s₀ m ρ).mem ((c : Dev nD), b)
/-- After the reshape and the three transposes: what the projection region is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the projection region: its seven arrays at what its write-backs leave, everything else untouched. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem B2_final (c : Dev nD) (w : Fin cfg0.W) : (dat0 (E1 m ρ) c).arrAt w cfg0.N = E2 m ρ c (Pipeline.arrRef spec0 w) :=
  (B2_arr m ρ c w).symm
theorem B2_rest (c : Dev nD) : ∀ b, b ∉ Finset.univ.image (Pipeline.arrRef spec0) → E2 m ρ c b = E1 m ρ c b :=
  fun b hb => B2_other m ρ c b fun w e => hb (Finset.mem_image.mpr ⟨w, Finset.mem_univ _, e⟩)

/-- After the three reshapes to [8, 4096, 128]: what the attention region is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention region: its four arrays at what its write-backs leave, everything else untouched. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem B4_final (c : Dev nD) (w : Fin cfg1.W) : (dat1 (E3 m ρ) c).arrAt w cfg1.N = E4 m ρ c (Pipeline.arrRef spec1 w) :=
  (B4_arr m ρ c w).symm
theorem B4_rest (c : Dev nD) : ∀ b, b ∉ Finset.univ.image (Pipeline.arrRef spec1) → E4 m ρ c b = E3 m ρ c b :=
  fun b hb => B4_other m ρ c b fun w e => hb (Finset.mem_image.mpr ⟨w, Finset.mem_univ _, e⟩)

/-! ## An argument is written by nothing

No host operation writes an argument and no region has one among its arrays, so an argument's buffer holds its
launch contents at every boundary. -/

theorem B4_arg (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    B4 m ρ c (Proc.devRef .tc r) = m ((c : Thread nD τ).loc r) :=
  calc B4 m ρ c (Proc.devRef .tc r)
    _ = B3 m ρ c (Proc.devRef .tc r) := B4_other m ρ c r ha1
    _ = B2 m ρ c (Proc.devRef .tc r) := StableHlo.after_of_writes_sub hostOps1 _ hostOps1_writes h1
    _ = B1 m ρ c (Proc.devRef .tc r) := B2_other m ρ c r ha0
    _ = B0 m ρ c (Proc.devRef .tc r) := StableHlo.after_of_writes_sub hostOps0 _ hostOps0_writes h0
    _ = m ((c : Thread nD τ).loc r) := rfl

theorem B4_main_arg0 (c : Dev nD) : B4 m ρ c (Proc.devRef .tc main_arg0) = m ((c : Thread nD τ).loc main_arg0) :=
  B4_arg m ρ c main_arg0 (by decide) (by decide) (by decide) (by decide)
theorem B4_main_arg1 (c : Dev nD) : B4 m ρ c (Proc.devRef .tc main_arg1) = m ((c : Thread nD τ).loc main_arg1) :=
  B4_arg m ρ c main_arg1 (by decide) (by decide) (by decide) (by decide)
theorem B4_main_arg2 (c : Dev nD) : B4 m ρ c (Proc.devRef .tc main_arg2) = m ((c : Thread nD τ).loc main_arg2) :=
  B4_arg m ρ c main_arg2 (by decide) (by decide) (by decide) (by decide)
theorem B4_main_arg3 (c : Dev nD) : B4 m ρ c (Proc.devRef .tc main_arg3) = m ((c : Thread nD τ).loc main_arg3) :=
  B4_arg m ρ c main_arg3 (by decide) (by decide) (by decide) (by decide)

/-! ## The proof data of both pipelines and the state a core carries between items -/

/-- Neither pallas_call has a prefetched table. -/
abbrev noTables : (p : Fin 2) → (pcfgs (F := F) p).Adm := fun p => (cfgs p).toPCfg_adm
/-- Each pipeline's proof data at the contents its region is entered with. -/
def bothDats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev noVariants : Variants := Variants.none
/-- No core ever owes another anything. -/
abbrev noDues : GSem nD τ sig → Finset Unit := fun _ => ∅
abbrev noLevels : GSem nD τ sig → Unit → ℕ := fun _ _ => 0
/-- Beside the buffers a core carries its generator register, at some state, and owes nothing. -/
abbrev carried (c : Dev nD) : sProp 𝕄 := iprop((∃ r, prngReg c r) ∗ ∃ W, owes (c : Thread nD τ) (0 : CellTallies nD τ sig Unit) W)
/-- A stretch of host operations from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, apart from owing nothing. -/
abbrev atEnd (c : Dev nD) : sProp 𝕄 := iprop(StableHlo.held (c : Thread nD τ) (Pipeline.ucRefs τ sig) (B4 m ρ c) ∗ ∃ r, prngReg c r)

/-! ## The two regions -/

set_option backward.isDefEq.respectTransparency.types false in
/-- The projection region, entered with every unscoped buffer at `B1` and left with them at `B2`: its arrays are
    taken out of the unscoped buffers and put back at their final contents; its invariant is the scoped rest and
    the generator register, unchanged from point to point. -/
def projRegion : Pipeline.RegionSeg (pcfgs (F := F)) noTables (bothDats m ρ) () defs₀ noVariants noDues noLevels 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noDues noLevels 0 fun _ _ => rfl
  pre c := iprop(StableHlo.held (c : Thread nD τ) (Pipeline.ucRefs τ sig) (B1 m ρ c) ∗ carried c)
  post c := iprop(StableHlo.held (c : Thread nD τ) (Pipeline.ucRefs τ sig) (B2 m ρ c) ∗ carried c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (bothDats m ρ) launch0.win launch0.arr_whole c
      ((bothDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (bothDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (bothDats m ρ) ((bothDats m ρ 0 c).share_full fun _ => rfl)
      (E1 m ρ c) (E2 m ρ c) ((bothDats m ρ 0 c).arrAt · cfg0.N) (B2_final m ρ c) (B2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region, entered with every unscoped buffer at `B3` and left with them at `B4`. Its invariant
    carries the three scratch buffers from point to point at the contents the point before left; at its two ends
    that invariant is exchanged for the plain one (the scoped rest at anything and the generator register). -/
def attnRegion : Pipeline.RegionSeg (pcfgs (F := F)) noTables (bothDats m ρ) () defs₀ noVariants noDues noLevels 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noDues noLevels 1 fun _ _ => rfl
  pre c := iprop(StableHlo.held (c : Thread nD τ) (Pipeline.ucRefs τ sig) (B3 m ρ c) ∗ carried c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (bothDats m ρ) launch1.win launch1.arr_whole c
      ((bothDats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (E3 m ρ) c)
    show (_ : sProp 𝕄) ⊢ (_ : sProp 𝕄)
    unfold Pipeline.ΦA
    iintro ⟨Hp, -, Hr⟩
    isplitl [Hr]; · iexact Hr
    iexact Hp
  hout c := by
    refine BI.Entails.trans (hout1 (E3 m ρ) c) ?_
    show (_ : sProp 𝕄) ⊢ (_ : sProp 𝕄)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m ρ) ((bothDats m ρ 1 c).share_full fun _ => rfl)
      (E3 m ρ c) (E4 m ρ c) ((bothDats m ρ 1 c).arrAt · cfg1.N) (B4_final m ρ c) (B4_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program -/

/-- The program's four items in order. -/
abbrev items : List (Pipeline.Seg (pcfgs (F := F)) noTables (bothDats m ρ) () defs₀ noVariants noDues noLevels) :=
  [ .host (hostStretch hostOps0 hostOps0_sub hostOps0_fresh (B0 m ρ)),
    .region (projRegion m ρ),
    .host (hostStretch hostOps1 hostOps1_sub hostOps1_fresh (B2 m ρ)),
    .region (attnRegion m ρ) ]
theorem main_is_items (c : Dev nD) : main (F := F) c = Pipeline.Seg.run (items m ρ) := (main_chain c).trans (by chain_rfl)

set_option backward.isDefEq.respectTransparency.types false in
/-- From any memory with zero counters every weakly fair execution of the program terminates without a fault, and
    at the end every unscoped buffer of every core holds what the fold `B4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (bothDats m ρ) () cellOf_inj emb₁ defs₀ noVariants noDues noLevels m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ carried c)) (Tₙ := atEnd m ρ)
    (hch := ⟨fun _ => .rfl, fun _ => .rfl, fun _ => .rfl, fun _ => .rfl, fun _ => .rfl⟩)
    (hinit := by
      refine Pipeline.initEach noDues noLevels fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (B4_main_arg0 m ρ c),
     (h c _ (mem_unscoped main_arg1 (by decide))).trans (B4_main_arg1 m ρ c),
     (h c _ (mem_unscoped main_arg2 (by decide))).trans (B4_main_arg2 m ρ c),
     (h c _ (mem_unscoped main_arg3 (by decide))).trans (B4_main_arg3 m ρ c)⟩) (run_all m ρ)

/-- The result buffer at the end is the attention region's output array after its last point. -/
theorem result_eq (c : Dev nD) : B4 m ρ c (Proc.devRef .tc main_v8) = (dat1 (E3 m ρ) c).arrAt 3 cfg1.N :=
  B4_arr m ρ c 3

end Cert.Kernel.Hand

end
-- ==== Proof.lean ====
/-
  Single-head attention with unscaled scores over f32[8, 4096, 128].

  The kernel computes softmax(Q Kᵀ) V blockwise: it projects the input by the three weight matrices, then visits the
  keys of a batch in four blocks of 1024, keeping per query row a running maximum of the scores, a running denominator
  and a running numerator, rescaled by exp (old maximum − new maximum) at each block, and divides at the last block.
  The reference computes the same quantity plainly: all scores of a row, their maximum, the weights, their sum, the
  normalised weighted sum of the values.

  Proved: each of the three programs runs and leaves its arguments unchanged; and, on the extended reals (every float
  operation exact), for inputs whose every entry is finite, the kernel's result equals the reference's, entry by
  entry. The blockwise and the plain arrangement agree because rescaling by exp (m − m') turns weights taken against
  m into weights taken against m', and all sums involved are sums of reals.
-/
import proofs.«120248_j30039001268548_2_alg».proof.Defs
import proofs.«120248_j30039001268548_2_alg».proof.Proof.Gen.Kernel
import proofs.«120248_j30039001268548_2_alg».proof.Proof.Gen.Kernel.Skeleton
import proofs.«120248_j30039001268548_2_alg».proof.Proof.Gen.Kernel.Launch
import proofs.«120248_j30039001268548_2_alg».proof.Proof.Gen.Kernel.Regions
import proofs.«120248_j30039001268548_2_alg».proof.Proof.Gen.Kernel.Points
import proofs.«120248_j30039001268548_2_alg».proof.Proof.Gen.KernelIdeal
import proofs.«120248_j30039001268548_2_alg».proof.Proof.Gen.KernelIdeal.Skeleton
import proofs.«120248_j30039001268548_2_alg».proof.Proof.Gen.KernelIdeal.Launch
import proofs.«120248_j30039001268548_2_alg».proof.Proof.Gen.KernelIdeal.Regions
import proofs.«120248_j30039001268548_2_alg».proof.Proof.Gen.KernelIdeal.Points
import proofs.«120248_j30039001268548_2_alg».proof.Proof.Gen.ReferenceIdeal
import proofs.«120248_j30039001268548_2_alg».proof.Proof.Gen.Pre_finite_inputs
import proofs.«120248_j30039001268548_2_alg».proof.Proof.Gen.ReferenceIdeal.Run
import proofs.«120248_j30039001268548_2_alg».proof.Proof.Gen.ReferenceIdeal.Read
import proofs.«120248_j30039001268548_2_alg».proof.Proof.RefValue
import proofs.«120248_j30039001268548_2_alg».proof.Proof.KI.Run
import proofs.«120248_j30039001268548_2_alg».proof.Proof.KI.Final
import proofs.«120248_j30039001268548_2_alg».proof.Proof.K.Run
import Idealize.ShloMosaic.Adequacy
import Idealize.ShloMosaic.Init

noncomputable section

namespace Cert.Proof

open Idealize.ShloMosaic Idealize.ShloMosaic.TcCoe Idealize.SL.Sem

/-- The word-level kernel runs and leaves its four arguments as launched. -/
theorem frame_k : Cert.frame_Kernel := fun m ρ _ => Cert.Kernel.Hand.frame m ρ

/-- The kernel read on the extended reals runs and leaves its four arguments as launched. -/
theorem frame_ki : Cert.frame_KernelIdeal := fun m ρ _ => Cert.KernelIdeal.Hand.frame m ρ

/-- The reference runs and leaves its four arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the four arguments, every entry of which is finite, the kernel
    and the reference both run, leave their arguments unchanged, and end with equal results: the kernel's result
    array, entry by entry, is the reference's result term of the same arguments. -/
theorem algebraic : Cert.algebraic_KernelIdeal_ReferenceIdeal := by
  intro m ρ m' ρ' hpre hagree
  refine ⟨fun c => Cert.KernelIdeal.Hand.B4 m ρ c (Proc.devRef .tc Cert.KernelIdeal.main_v8), ?_, ?_⟩
  · exact (θ_run Cert.KernelIdeal.defs _ _).mono (fun _ h c =>
      ⟨h c _ (Cert.KernelIdeal.Hand.mem_unscoped Cert.KernelIdeal.main_v8 (by decide)),
       (h c _ (Cert.KernelIdeal.Hand.mem_unscoped Cert.KernelIdeal.main_arg0 (by decide))).trans (Cert.KernelIdeal.Hand.B4_main_arg0 m ρ c),
       (h c _ (Cert.KernelIdeal.Hand.mem_unscoped Cert.KernelIdeal.main_arg1 (by decide))).trans (Cert.KernelIdeal.Hand.B4_main_arg1 m ρ c),
       (h c _ (Cert.KernelIdeal.Hand.mem_unscoped Cert.KernelIdeal.main_arg2 (by decide))).trans (Cert.KernelIdeal.Hand.B4_main_arg2 m ρ c),
       (h c _ (Cert.KernelIdeal.Hand.mem_unscoped Cert.KernelIdeal.main_arg3 (by decide))).trans (Cert.KernelIdeal.Hand.B4_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, (hagree c).1, (hagree c).2.1, (hagree c).2.2.1, (hagree c).2.2.2]
    funext i
    exact (Cert.KernelIdeal.Hand.kernel_value m ρ hpre c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
